-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x256x256 : Shape := ⟨4, ![8, 256, 256, 256]⟩
abbrev S256x256 : Shape := ⟨2, ![256, 256]⟩
abbrev S256 : Shape := ⟨1, ![256]⟩
abbrev S_ : Shape := ⟨0, ![]⟩

class Facts : Prop where
  bcast_S_S8x256x256x256 : S_.BroadcastsInDim S8x256x256x256 (![] : Fin 0 → Fin S8x256x256x256.rank)
  reducesTo_S8x256x256x256_S_d0_1_2_3 : S8x256x256x256.ReducesTo [0, 1, 2, 3] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg7 : FVec F S256 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  main_v38

def fn_part1 {F : FTy → Type} [FloatOps F] (main_arg4 : FVec F S256 .f32) (main_arg5 : FVec F S256x256 .f32) (main_arg6 : FVec F S256 .f32) (main_arg7 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_v33

def fn {F : FTy → Type} [FloatOps F] (main_arg0 : FVec F S8x256x256x256 .f32) (main_arg1 : FVec F S256x256 .f32) (main_arg2 : FVec F S256 .f32) (main_arg3 : FVec F S256x256 .f32) (main_arg4 : FVec F S256 .f32) (main_arg5 : FVec F S256x256 .f32) (main_arg6 : FVec F S256 .f32) (main_arg7 : FVec F S256 .f32) : IVec S_ 1 :=
  let main_v0 : FVec F S8x256x256x256 .f32 := Host.absf main_arg0
  let main_cst : FVec F S_ .f32 := constant S_ .f32 0x7F800000#32
  let main_v1 : FVec F S8x256x256x256 .f32 := broadcastInDim S8x256x256x256 ![] bcast_S_S8x256x256x256 main_cst
  let main_v2 : IVec S8x256x256x256 1 := cmpf .olt main_v0 main_v1
  let main_c : IVec S_ 1 := constantI S_ 1 1#1
  let main_v3 : IVec S_ 1 := (fun x v => Host.reduce IntOp.andi x v reducesTo_S8x256x256x256_S_d0_1_2_3 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_arg7 main_v13 main_v16
-- ==== Kernel.lean ====
abbrev S8x256x256x256 : Shape := ⟨4, ![8, 256, 256, 256]⟩
abbrev S256x256 : Shape := ⟨2, ![256, 256]⟩
abbrev S256 : Shape := ⟨1, ![256]⟩
abbrev S2048x256x256 : Shape := ⟨3, ![2048, 256, 256]⟩
abbrev S1x256 : Shape := ⟨2, ![1, 256]⟩
abbrev S8x256x256 : Shape := ⟨3, ![8, 256, 256]⟩
abbrev S2048x256 : Shape := ⟨2, ![2048, 256]⟩
abbrev S8x256 : Shape := ⟨2, ![8, 256]⟩
abbrev S8x256x1 : Shape := ⟨3, ![8, 256, 1]⟩
abbrev S1x1x256 : Shape := ⟨3, ![1, 1, 256]⟩

abbrev nBuf : Space → Nat
  | .hbm => 15
  | .vmem => 11
  | .smem => 0
  | _ => 0

abbrev bufTy : (tb : Table) → Fin (tcTables nBuf tb) → BufTy
  | .hbm, ⟨0, _⟩ => ⟨S8x256x256x256, .f32⟩
  | .hbm, ⟨1, _⟩ => ⟨S256x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256, .f32⟩
  | .hbm, ⟨8, _⟩ => ⟨S2048x256x256, .f32⟩
  | .hbm, ⟨9, _⟩ => ⟨S1x256, .f32⟩
  | .hbm, ⟨10, _⟩ => ⟨S1x256, .f32⟩
  | .hbm, ⟨11, _⟩ => ⟨S1x256, .f32⟩
  | .hbm, ⟨12, _⟩ => ⟨S1x256, .f32⟩
  | .hbm, ⟨13, _⟩ => ⟨S2048x256x256, .f32⟩
  | .hbm, ⟨14, _⟩ => ⟨S8x256x256x256, .f32⟩
  | .local _ .vmem, ⟨0, _⟩ => ⟨S8x256x256, .f32⟩
  | .local _ .vmem, ⟨1, _⟩ => ⟨S8x256x256, .f32⟩
  | .local _ .vmem, ⟨2, _⟩ => ⟨S256x256, .f32⟩
  | .local _ .vmem, ⟨3, _⟩ => ⟨S1x256, .f32⟩
  | .local _ .vmem, ⟨4, _⟩ => ⟨S256x256, .f32⟩
  | .local _ .vmem, ⟨5, _⟩ => ⟨S1x256, .f32⟩
  | .local _ .vmem, ⟨6, _⟩ => ⟨S256x256, .f32⟩
  | .local _ .vmem, ⟨7, _⟩ => ⟨S1x256, .f32⟩
  | .local _ .vmem, ⟨8, _⟩ => ⟨S1x256, .f32⟩
  | .local _ .vmem, ⟨9, _⟩ => ⟨S8x256x256, .f32⟩
  | .local _ .vmem, ⟨10, _⟩ => ⟨S8x256x256, .f32⟩
  | _, _ => ⟨S8x256x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![256], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S8x256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  shapeCasts_S8x256x256x256_S2048x256x256 : S8x256x256x256.ShapeCasts S2048x256x256
  shapeCasts_S256_S1x256 : S256.ShapeCasts S1x256
  inb_S8x256x256_S8x256x256_0_0_0 : ∀ a, (![0, 0, 0] : Fin 3 → Nat) a + S8x256x256.size a ≤ S8x256x256.size a
  h_S8x256x256 : 0 < S8x256x256.numel
  shapeCasts_S8x256x256_S8x256x256 : S8x256x256.ShapeCasts S8x256x256
  bitsLt_bf16_f32 : FTy.bits .bf16 < FTy.bits .f32
  shapeCasts_S8x256x256_S2048x256 : S8x256x256.ShapeCasts S2048x256
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S256 : S1x256.ShapeCasts S256
  broadcasts_S1x256_S2048x256 : S1x256.Broadcasts S2048x256
  shapeCasts_S2048x256_S8x256x256 : S2048x256.ShapeCasts S8x256x256
  reduces_S8x256x256_S8x256 : S8x256x256.Reduces [2] S8x256
  shapeCasts_S8x256_S8x256x1 : S8x256.ShapeCasts S8x256x1
  broadcasts_S8x256x1_S8x256x256 : S8x256x1.Broadcasts S8x256x256
  shapeCasts_S256_S1x1x256 : S256.ShapeCasts S1x1x256
  broadcasts_S1x1x256_S8x256x256 : S1x1x256.Broadcasts S8x256x256
  shapeCasts_S2048x256x256_S8x256x256x256 : S2048x256x256.ShapeCasts S8x256x256x256
  dot_S2048x256_S256x256_S2048x256_1_0_0_1_n_n_wf : DotDims.WF S2048x256 S256x256 S2048x256 [1] [0] [0] [1] [] []
  dot_S8x256x256_S8x256x256_S8x256x256_2_2_1_1_0_0_wf : DotDims.WF S8x256x256 S8x256x256 S8x256x256 [2] [2] [1] [1] [0] [0]
  dot_S8x256x256_S8x256x256_S8x256x256_2_1_1_2_0_0_wf : DotDims.WF S8x256x256 S8x256x256 S8x256x256 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x256x256.size a ≤ S2048x256x256.size a
  hwx0_0 : ∀ i : grid0.Coords, EltTy.bits .f32 = 32 ∨ (Rect.block (s := S2048x256x256) S8x256x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S8x256x256.size a ≤ S2048x256x256.size a
  hwx0_8 : ∀ i : grid0.Coords, EltTy.bits .f32 = 32 ∨ (Rect.block (s := S2048x256x256) S8x256x256.size (cc0_transform_8 i) (hinb0_8 i)).WholeWords (EltTy.packing .f32)

variable [Facts₀]

def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S8x256x256_S8x256x256_S8x256x256_2_2_1_1_0_0 : DotDims S8x256x256 S8x256x256 S8x256x256 where
  lhsContracting := [2]
  rhsContracting := [2]
  lhsNonContracting := [1]
  rhsNonContracting := [1]
  lhsBatch := [0]
  rhsBatch := [0]
  wf := dot_S8x256x256_S8x256x256_S8x256x256_2_2_1_1_0_0_wf
def dot_S8x256x256_S8x256x256_S8x256x256_2_1_1_2_0_0 : DotDims S8x256x256 S8x256x256 S8x256x256 where
  lhsContracting := [2]
  rhsContracting := [1]
  lhsNonContracting := [1]
  rhsNonContracting := [2]
  lhsBatch := [0]
  rhsBatch := [0]
  wf := dot_S8x256x256_S8x256x256_S8x256x256_2_1_1_2_0_0_wf

abbrev win0_0 : Pipeline.Window sig grid0 :=
  Pipeline.Window.ofSpec (Memref.whole main_v0) S8x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5) S8x256x256.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S8x256x256x256 : Shape := ⟨4, ![8, 256, 256, 256]⟩
abbrev S256x256 : Shape := ⟨2, ![256, 256]⟩
abbrev S256 : Shape := ⟨1, ![256]⟩
abbrev S1x1x1x256 : Shape := ⟨4, ![1, 1, 1, 256]⟩
abbrev S_ : Shape := ⟨0, ![]⟩
abbrev S8x256x256 : Shape := ⟨3, ![8, 256, 256]⟩
abbrev S8x256x256x1 : Shape := ⟨4, ![8, 256, 256, 1]⟩

abbrev nBuf : Space → Nat
  | .hbm => 40
  | .vmem => 0
  | .smem => 0
  | _ => 0

abbrev bufTy : (tb : Table) → Fin (tcTables nBuf tb) → BufTy
  | .hbm, ⟨0, _⟩ => ⟨S8x256x256x256, .f32⟩
  | .hbm, ⟨1, _⟩ => ⟨S256x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256, .f32⟩
  | .hbm, ⟨8, _⟩ => ⟨S8x256x256x256, .f32⟩
  | .hbm, ⟨9, _⟩ => ⟨S1x1x1x256, .f32⟩
  | .hbm, ⟨10, _⟩ => ⟨S8x256x256x256, .f32⟩
  | .hbm, ⟨11, _⟩ => ⟨S8x256x256x256, .f32⟩
  | .hbm, ⟨12, _⟩ => ⟨S8x256x256x256, .f32⟩
  | .hbm, ⟨13, _⟩ => ⟨S1x1x1x256, .f32⟩
  | .hbm, ⟨14, _⟩ => ⟨S8x256x256x256, .f32⟩
  | .hbm, ⟨15, _⟩ => ⟨S8x256x256x256, .f32⟩
  | .hbm, ⟨16, _⟩ => ⟨S8x256x256x256, .f32⟩
  | .hbm, ⟨17, _⟩ => ⟨S1x1x1x256, .f32⟩
  | .hbm, ⟨18, _⟩ => ⟨S8x256x256x256, .f32⟩
  | .hbm, ⟨19, _⟩ => ⟨S8x256x256x256, .f32⟩
  | .hbm, ⟨20, _⟩ => ⟨S8x256x256x256, .f32⟩
  | .hbm, ⟨21, _⟩ => ⟨S_, .f32⟩
  | .hbm, ⟨22, _⟩ => ⟨S8x256x256, .f32⟩
  | .hbm, ⟨23, _⟩ => ⟨S_, .f32⟩
  | .hbm, ⟨24, _⟩ => ⟨S8x256x256, .f32⟩
  | .hbm, ⟨25, _⟩ => ⟨S8x256x256, .f32⟩
  | .hbm, ⟨26, _⟩ => ⟨S8x256x256x1, .f32⟩
  | .hbm, ⟨27, _⟩ => ⟨S8x256x256x256, .f32⟩
  | .hbm, ⟨28, _⟩ => ⟨S8x256x256x256, .f32⟩
  | .hbm, ⟨29, _⟩ => ⟨S8x256x256x256, .f32⟩
  | .hbm, ⟨30, _⟩ => ⟨S_, .f32⟩
  | .hbm, ⟨31, _⟩ => ⟨S8x256x256, .f32⟩
  | .hbm, ⟨32, _⟩ => ⟨S8x256x256x1, .f32⟩
  | .hbm, ⟨33, _⟩ => ⟨S8x256x256x256, .f32⟩
  | .hbm, ⟨34, _⟩ => ⟨S8x256x256x256, .f32⟩
  | .hbm, ⟨35, _⟩ => ⟨S8x256x256x256, .f32⟩
  | .hbm, ⟨36, _⟩ => ⟨S1x1x1x256, .f32⟩
  | .hbm, ⟨37, _⟩ => ⟨S8x256x256x256, .f32⟩
  | .hbm, ⟨38, _⟩ => ⟨S8x256x256x256, .f32⟩
  | .hbm, ⟨39, _⟩ => ⟨S8x256x256x256, .f32⟩
  | _, _ => ⟨S8x256x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]

class Facts₀ : Prop where
  bcast_S256_S1x1x1x256_3 : S256.BroadcastsInDim S1x1x1x256 (![3] : Fin 1 → Fin S1x1x1x256.rank)
  bcast_S1x1x1x256_S8x256x256x256_0_1_2_3 : S1x1x1x256.BroadcastsInDim S8x256x256x256 (![0, 1, 2, 3] : Fin 4 → Fin S8x256x256x256.rank)
  reducesTo_S8x256x256x256_S8x256x256_d3 : S8x256x256x256.ReducesTo [3] S8x256x256
  h_S_ : 0 < S_.numel
  bcast_S_S8x256x256 : S_.BroadcastsInDim S8x256x256 (![] : Fin 0 → Fin S8x256x256.rank)
  bcast_S8x256x256_S8x256x256x1_0_1_2 : S8x256x256.BroadcastsInDim S8x256x256x1 (![0, 1, 2] : Fin 3 → Fin S8x256x256x1.rank)
  bcast_S8x256x256x1_S8x256x256x256_0_1_2_3 : S8x256x256x1.BroadcastsInDim S8x256x256x256 (![0, 1, 2, 3] : Fin 4 → Fin S8x256x256x256.rank)
  dot_S8x256x256x256_S256x256_S8x256x256x256_3_0_012_1_n_n_wf : DotDims.WF S8x256x256x256 S256x256 S8x256x256x256 [3] [0] [0, 1, 2] [1] [] []
  dot_S8x256x256x256_S8x256x256x256_S8x256x256x256_3_3_2_2_01_01_wf : DotDims.WF S8x256x256x256 S8x256x256x256 S8x256x256x256 [3] [3] [2] [2] [0, 1] [0, 1]
  dot_S8x256x256x256_S8x256x256x256_S8x256x256x256_3_2_2_3_01_01_wf : DotDims.WF S8x256x256x256 S8x256x256x256 S8x256x256x256 [3] [2] [2] [3] [0, 1] [0, 1]

variable [Facts₀]

def dot_S8x256x256x256_S256x256_S8x256x256x256_3_0_012_1_n_n : DotDims S8x256x256x256 S256x256 S8x256x256x256 where
  lhsContracting := [3]
  rhsContracting := [0]
  lhsNonContracting := [0, 1, 2]
  rhsNonContracting := [1]
  lhsBatch := []
  rhsBatch := []
  wf := dot_S8x256x256x256_S256x256_S8x256x256x256_3_0_012_1_n_n_wf
def dot_S8x256x256x256_S8x256x256x256_S8x256x256x256_3_3_2_2_01_01 : DotDims S8x256x256x256 S8x256x256x256 S8x256x256x256 where
  lhsContracting := [3]
  rhsContracting := [3]
  lhsNonContracting := [2]
  rhsNonContracting := [2]
  lhsBatch := [0, 1]
  rhsBatch := [0, 1]
  wf := dot_S8x256x256x256_S8x256x256x256_S8x256x256x256_3_3_2_2_01_01_wf
def dot_S8x256x256x256_S8x256x256x256_S8x256x256x256_3_2_2_3_01_01 : DotDims S8x256x256x256 S8x256x256x256 S8x256x256x256 where
  lhsContracting := [3]
  rhsContracting := [2]
  lhsNonContracting := [2]
  rhsNonContracting := [3]
  lhsBatch := [0, 1]
  rhsBatch := [0, 1]
  wf := dot_S8x256x256x256_S8x256x256x256_S8x256x256x256_3_2_2_3_01_01_wf

class Facts : Prop extends Facts₀ where

variable [Facts]
-- ==== Proof.KernelOps.lean ====
/-
  The kernel body's three matrix products, read at one entry on the extended reals.

  * The flattened projection: a [2048, 256] array times a [256, 256] matrix into a zero accumulator is, at (r, d), the
    sum over k of left(r, k) · right(k, d).
  * The scores: for each of the 8 slabs, left(t, i, ·) against right(t, j, ·), both contracted along their last axis:
    at (t, i, j) the sum over c of left(t, i, c) · right(t, j, c).
  * The weights applied to the values: at (t, i, c) the sum over j of left(t, i, j) · right(t, j, c).
  In each the operand index of the product at an output index and a contraction coordinate is read off the
  product's dimension record, axis by axis, and the sum is re-indexed from the record's contraction index to Fin 256.
-/
import proofs.«116155_j69750268887504_1_alg».proof.Proof.Gen.KernelIdeal
import Idealize.ShloMosaic.Lib.ValueIdx
import Idealize.ShloMosaic.PureOps.Ideal.Laws

noncomputable section

open scoped BigOperators

namespace Cert.KernelIdeal.Ops

open Cert.KernelIdeal Cert.KernelIdeal.Gen Idealize.ShloMosaic Idealize.ShloMosaic.ValueIdx

/-! ## The flattened projection -/

private theorem dL0 (i : S2048x256.Idx) (q : dot_S2048x256_S256x256_S2048x256_1_0_0_1_n_n.contr.Idx) :
    (dot_S2048x256_S256x256_S2048x256_1_0_0_1_n_n.lhsIdx i q 0).val = (i 0).val := by
  unfold DotDims.lhsIdx
  rw [dif_neg (show ¬(0 : Fin S2048x256.rank) ∈ dot_S2048x256_S256x256_S2048x256_1_0_0_1_n_n.lhsBatch by decide), dif_pos (show (0 : Fin S2048x256.rank) ∈ dot_S2048x256_S256x256_S2048x256_1_0_0_1_n_n.lhsNonContracting by decide)]
  rfl

private theorem dL1 (i : S2048x256.Idx) (q : dot_S2048x256_S256x256_S2048x256_1_0_0_1_n_n.contr.Idx) :
    (dot_S2048x256_S256x256_S2048x256_1_0_0_1_n_n.lhsIdx i q 1).val = (q ⟨0, by decide⟩).val :=
  dot_S2048x256_S256x256_S2048x256_1_0_0_1_n_n.lhsIdx_val_of_single rfl i q

private theorem dR0 (i : S2048x256.Idx) (q : dot_S2048x256_S256x256_S2048x256_1_0_0_1_n_n.contr.Idx) :
    (dot_S2048x256_S256x256_S2048x256_1_0_0_1_n_n.rhsIdx i q 0).val = (q ⟨0, by decide⟩).val :=
  dot_S2048x256_S256x256_S2048x256_1_0_0_1_n_n.rhsIdx_val_of_single rfl i q

private theorem dR1 (i : S2048x256.Idx) (q : dot_S2048x256_S256x256_S2048x256_1_0_0_1_n_n.contr.Idx) :
    (dot_S2048x256_S256x256_S2048x256_1_0_0_1_n_n.rhsIdx i q 1).val = (i 1).val := by
  unfold DotDims.rhsIdx
  rw [dif_neg (show ¬(1 : Fin S256x256.rank) ∈ dot_S2048x256_S256x256_S2048x256_1_0_0_1_n_n.rhsBatch by decide), dif_pos (show (1 : Fin S256x256.rank) ∈ dot_S2048x256_S256x256_S2048x256_1_0_0_1_n_n.rhsNonContracting by decide)]
  rfl

/-- Rows times a matrix into zero: at (r, d) the sum over k of left(r, k) · right(k, d). -/
theorem dense_apply {φ₁ φ₂ : FTy} (xb : FVec Ideal S2048x256 φ₁) (w : FVec Ideal S256x256 φ₂) (r : Fin 2048) (d : Fin 256) :
    matmul dot_S2048x256_S256x256_S2048x256_1_0_0_1_n_n none xb w (constant (F := Ideal) S2048x256 .f32 0x00000000#32) (ix2 r d)
      = ∑ k : Fin 256, xb (ix2 r k) * w (ix2 k d) := by
  simp only [matmul]
  rw [Ideal.matmul_constant_zero_apply, ← Equiv.sum_comp (ValueIdx.contrEquiv1 dot_S2048x256_S256x256_S2048x256_1_0_0_1_n_n 256 rfl rfl).symm]
  refine Finset.sum_congr rfl fun k _ => ?_
  have hk := ValueIdx.contrEquiv1_symm_val dot_S2048x256_S256x256_S2048x256_1_0_0_1_n_n 256 rfl rfl k
  have el : dot_S2048x256_S256x256_S2048x256_1_0_0_1_n_n.lhsIdx (ix2 r d) ((ValueIdx.contrEquiv1 dot_S2048x256_S256x256_S2048x256_1_0_0_1_n_n 256 rfl rfl).symm k) = ix2 r k := funext fun a => Fin.ext (by
    match a with
    | ⟨0, _⟩ => exact dL0 _ _
    | ⟨1, _⟩ => exact (dL1 _ _).trans hk)
  have er : dot_S2048x256_S256x256_S2048x256_1_0_0_1_n_n.rhsIdx (ix2 r d) ((ValueIdx.contrEquiv1 dot_S2048x256_S256x256_S2048x256_1_0_0_1_n_n 256 rfl rfl).symm k) = ix2 k d := funext fun a => Fin.ext (by
    match a with
    | ⟨0, _⟩ => exact (dR0 _ _).trans hk
    | ⟨1, _⟩ => exact dR1 _ _)
  rw [el, er]

/-! ## The scores -/

private theorem sL0 (i : S8x256x256.Idx) (q : dot_S8x256x256_S8x256x256_S8x256x256_2_2_1_1_0_0.contr.Idx) :
    (dot_S8x256x256_S8x256x256_S8x256x256_2_2_1_1_0_0.lhsIdx i q 0).val = (i 0).val := by
  unfold DotDims.lhsIdx
  rw [dif_pos (show (0 : Fin S8x256x256.rank) ∈ dot_S8x256x256_S8x256x256_S8x256x256_2_2_1_1_0_0.lhsBatch by decide)]
  rfl

private theorem sL1 (i : S8x256x256.Idx) (q : dot_S8x256x256_S8x256x256_S8x256x256_2_2_1_1_0_0.contr.Idx) :
    (dot_S8x256x256_S8x256x256_S8x256x256_2_2_1_1_0_0.lhsIdx i q 1).val = (i 1).val := by
  unfold DotDims.lhsIdx
  rw [dif_neg (show ¬(1 : Fin S8x256x256.rank) ∈ dot_S8x256x256_S8x256x256_S8x256x256_2_2_1_1_0_0.lhsBatch by decide), dif_pos (show (1 : Fin S8x256x256.rank) ∈ dot_S8x256x256_S8x256x256_S8x256x256_2_2_1_1_0_0.lhsNonContracting by decide)]
  rfl

private theorem sL2 (i : S8x256x256.Idx) (q : dot_S8x256x256_S8x256x256_S8x256x256_2_2_1_1_0_0.contr.Idx) :
    (dot_S8x256x256_S8x256x256_S8x256x256_2_2_1_1_0_0.lhsIdx i q 2).val = (q ⟨0, by decide⟩).val :=
  dot_S8x256x256_S8x256x256_S8x256x256_2_2_1_1_0_0.lhsIdx_val_of_single rfl i q

private theorem sR0 (i : S8x256x256.Idx) (q : dot_S8x256x256_S8x256x256_S8x256x256_2_2_1_1_0_0.contr.Idx) :
    (dot_S8x256x256_S8x256x256_S8x256x256_2_2_1_1_0_0.rhsIdx i q 0).val = (i 0).val := by
  unfold DotDims.rhsIdx
  rw [dif_pos (show (0 : Fin S8x256x256.rank) ∈ dot_S8x256x256_S8x256x256_S8x256x256_2_2_1_1_0_0.rhsBatch by decide)]
  rfl

private theorem sR1 (i : S8x256x256.Idx) (q : dot_S8x256x256_S8x256x256_S8x256x256_2_2_1_1_0_0.contr.Idx) :
    (dot_S8x256x256_S8x256x256_S8x256x256_2_2_1_1_0_0.rhsIdx i q 1).val = (i 2).val := by
  unfold DotDims.rhsIdx
  rw [dif_neg (show ¬(1 : Fin S8x256x256.rank) ∈ dot_S8x256x256_S8x256x256_S8x256x256_2_2_1_1_0_0.rhsBatch by decide), dif_pos (show (1 : Fin S8x256x256.rank) ∈ dot_S8x256x256_S8x256x256_S8x256x256_2_2_1_1_0_0.rhsNonContracting by decide)]
  rfl

private theorem sR2 (i : S8x256x256.Idx) (q : dot_S8x256x256_S8x256x256_S8x256x256_2_2_1_1_0_0.contr.Idx) :
    (dot_S8x256x256_S8x256x256_S8x256x256_2_2_1_1_0_0.rhsIdx i q 2).val = (q ⟨0, by decide⟩).val :=
  dot_S8x256x256_S8x256x256_S8x256x256_2_2_1_1_0_0.rhsIdx_val_of_single rfl i q

/-- Slab by slab, rows against rows: at (t, i, j) the sum over c of left(t, i, c) · right(t, j, c). -/
theorem scoreMM_apply {φ₁ φ₂ : FTy} (q : FVec Ideal S8x256x256 φ₁) (k : FVec Ideal S8x256x256 φ₂) (t : Fin 8) (i j : Fin 256) :
    matmul dot_S8x256x256_S8x256x256_S8x256x256_2_2_1_1_0_0 none q k (constant (F := Ideal) S8x256x256 .f32 0x00000000#32) (ix3 t i j)
      = ∑ c : Fin 256, q (ix3 t i c) * k (ix3 t j c) := by
  simp only [matmul]
  rw [Ideal.matmul_constant_zero_apply, ← Equiv.sum_comp (ValueIdx.contrEquiv1 dot_S8x256x256_S8x256x256_S8x256x256_2_2_1_1_0_0 256 rfl rfl).symm]
  refine Finset.sum_congr rfl fun c _ => ?_
  have hk := ValueIdx.contrEquiv1_symm_val dot_S8x256x256_S8x256x256_S8x256x256_2_2_1_1_0_0 256 rfl rfl c
  have el : dot_S8x256x256_S8x256x256_S8x256x256_2_2_1_1_0_0.lhsIdx (ix3 t i j) ((ValueIdx.contrEquiv1 dot_S8x256x256_S8x256x256_S8x256x256_2_2_1_1_0_0 256 rfl rfl).symm c) = ix3 t i c := funext fun a => Fin.ext (by
    match a with
    | ⟨0, _⟩ => exact sL0 _ _
    | ⟨1, _⟩ => exact sL1 _ _
    | ⟨2, _⟩ => exact (sL2 _ _).trans hk)
  have er : dot_S8x256x256_S8x256x256_S8x256x256_2_2_1_1_0_0.rhsIdx (ix3 t i j) ((ValueIdx.contrEquiv1 dot_S8x256x256_S8x256x256_S8x256x256_2_2_1_1_0_0 256 rfl rfl).symm c) = ix3 t j c := funext fun a => Fin.ext (by
    match a with
    | ⟨0, _⟩ => exact sR0 _ _
    | ⟨1, _⟩ => exact sR1 _ _
    | ⟨2, _⟩ => exact (sR2 _ _).trans hk)
  rw [el, er]

/-! ## The weights applied to the values -/

private theorem aL0 (i : S8x256x256.Idx) (q : dot_S8x256x256_S8x256x256_S8x256x256_2_1_1_2_0_0.contr.Idx) :
    (dot_S8x256x256_S8x256x256_S8x256x256_2_1_1_2_0_0.lhsIdx i q 0).val = (i 0).val := by
  unfold DotDims.lhsIdx
  rw [dif_pos (show (0 : Fin S8x256x256.rank) ∈ dot_S8x256x256_S8x256x256_S8x256x256_2_1_1_2_0_0.lhsBatch by decide)]
  rfl

private theorem aL1 (i : S8x256x256.Idx) (q : dot_S8x256x256_S8x256x256_S8x256x256_2_1_1_2_0_0.contr.Idx) :
    (dot_S8x256x256_S8x256x256_S8x256x256_2_1_1_2_0_0.lhsIdx i q 1).val = (i 1).val := by
  unfold DotDims.lhsIdx
  rw [dif_neg (show ¬(1 : Fin S8x256x256.rank) ∈ dot_S8x256x256_S8x256x256_S8x256x256_2_1_1_2_0_0.lhsBatch by decide), dif_pos (show (1 : Fin S8x256x256.rank) ∈ dot_S8x256x256_S8x256x256_S8x256x256_2_1_1_2_0_0.lhsNonContracting by decide)]
  rfl

private theorem aL2 (i : S8x256x256.Idx) (q : dot_S8x256x256_S8x256x256_S8x256x256_2_1_1_2_0_0.contr.Idx) :
    (dot_S8x256x256_S8x256x256_S8x256x256_2_1_1_2_0_0.lhsIdx i q 2).val = (q ⟨0, by decide⟩).val :=
  dot_S8x256x256_S8x256x256_S8x256x256_2_1_1_2_0_0.lhsIdx_val_of_single rfl i q

private theorem aR0 (i : S8x256x256.Idx) (q : dot_S8x256x256_S8x256x256_S8x256x256_2_1_1_2_0_0.contr.Idx) :
    (dot_S8x256x256_S8x256x256_S8x256x256_2_1_1_2_0_0.rhsIdx i q 0).val = (i 0).val := by
  unfold DotDims.rhsIdx
  rw [dif_pos (show (0 : Fin S8x256x256.rank) ∈ dot_S8x256x256_S8x256x256_S8x256x256_2_1_1_2_0_0.rhsBatch by decide)]
  rfl

private theorem aR1 (i : S8x256x256.Idx) (q : dot_S8x256x256_S8x256x256_S8x256x256_2_1_1_2_0_0.contr.Idx) :
    (dot_S8x256x256_S8x256x256_S8x256x256_2_1_1_2_0_0.rhsIdx i q 1).val = (q ⟨0, by decide⟩).val :=
  dot_S8x256x256_S8x256x256_S8x256x256_2_1_1_2_0_0.rhsIdx_val_of_single rfl i q

private theorem aR2 (i : S8x256x256.Idx) (q : dot_S8x256x256_S8x256x256_S8x256x256_2_1_1_2_0_0.contr.Idx) :
    (dot_S8x256x256_S8x256x256_S8x256x256_2_1_1_2_0_0.rhsIdx i q 2).val = (i 2).val := by
  unfold DotDims.rhsIdx
  rw [dif_neg (show ¬(2 : Fin S8x256x256.rank) ∈ dot_S8x256x256_S8x256x256_S8x256x256_2_1_1_2_0_0.rhsBatch by decide), dif_pos (show (2 : Fin S8x256x256.rank) ∈ dot_S8x256x256_S8x256x256_S8x256x256_2_1_1_2_0_0.rhsNonContracting by decide)]
  rfl

/-- Slab by slab, rows times a matrix: at (t, i, c) the sum over j of left(t, i, j) · right(t, j, c). -/
theorem attendMM_apply {φ₁ φ₂ : FTy} (p : FVec Ideal S8x256x256 φ₁) (v : FVec Ideal S8x256x256 φ₂) (t : Fin 8) (i c : Fin 256) :
    matmul dot_S8x256x256_S8x256x256_S8x256x256_2_1_1_2_0_0 none p v (constant (F := Ideal) S8x256x256 .f32 0x00000000#32) (ix3 t i c)
      = ∑ j : Fin 256, p (ix3 t i j) * v (ix3 t j c) := by
  simp only [matmul]
  rw [Ideal.matmul_constant_zero_apply, ← Equiv.sum_comp (ValueIdx.contrEquiv1 dot_S8x256x256_S8x256x256_S8x256x256_2_1_1_2_0_0 256 rfl rfl).symm]
  refine Finset.sum_congr rfl fun j _ => ?_
  have hk := ValueIdx.contrEquiv1_symm_val dot_S8x256x256_S8x256x256_S8x256x256_2_1_1_2_0_0 256 rfl rfl j
  have el : dot_S8x256x256_S8x256x256_S8x256x256_2_1_1_2_0_0.lhsIdx (ix3 t i c) ((ValueIdx.contrEquiv1 dot_S8x256x256_S8x256x256_S8x256x256_2_1_1_2_0_0 256 rfl rfl).symm j) = ix3 t i j := funext fun a => Fin.ext (by
    match a with
    | ⟨0, _⟩ => exact aL0 _ _
    | ⟨1, _⟩ => exact aL1 _ _
    | ⟨2, _⟩ => exact (aL2 _ _).trans hk)
  have er : dot_S8x256x256_S8x256x256_S8x256x256_2_1_1_2_0_0.rhsIdx (ix3 t i c) ((ValueIdx.contrEquiv1 dot_S8x256x256_S8x256x256_S8x256x256_2_1_1_2_0_0 256 rfl rfl).symm j) = ix3 t j c := funext fun a => Fin.ext (by
    match a with
    | ⟨0, _⟩ => exact aR0 _ _
    | ⟨1, _⟩ => exact (aR1 _ _).trans hk
    | ⟨2, _⟩ => exact aR2 _ _)
  rw [el, er]

end Cert.KernelIdeal.Ops

end
-- ==== Proof.LibGroupAxis.lean ====
/-
  General lemmas for kernels that cut the columns of an [a, b] array into g consecutive groups of n (b = g · n) and
  reduce along each group, read at one index.

  * `shapeCast_ab_agn_apply`: an [a, b] array recast as [a, g, n] reads, at (p, gi, l), the array at (p, gi · n + l).
  * `shapeCast_agn_ab_apply`: an [a, g, n] array recast as [a, b] reads, at (p, gi · n + l), the array at (p, gi, l).
  * `lastSum3_apply`: at the exact (extended-real) instance, the sum of an [a, g, n] array along its last axis is,
    at (p, gi), the plain sum over k of the array at (p, gi, k).
  * `shapeCast_ag_ag1_apply`: an [a, g] array recast as [a, g, 1] (a kept unit axis) reads, at (p, gi, u), the array
    at (p, gi).
  * `broadcastTo_ag1_agn_apply`: an [a, g, 1] array repeated along its unit axis to [a, g, n] reads, at (p, gi, l),
    the array at (p, gi, 0).
-/
import Idealize.ShloMosaic.Lib.ValueIdx
import Idealize.ShloMosaic.Lib.Pipeline.Value
import Idealize.ShloMosaic.PureOps.Ideal.Laws

noncomputable section

open scoped BigOperators

namespace Cert.GroupAxis

open Idealize.ShloMosaic Idealize.ShloMosaic.ValueIdx

variable {α : Type} {a b g n : ℕ}

/-- An [a, b] array recast as [a, g, n] (b = g · n): position (p, gi, l) holds the array's entry at row p and column
    gi · n + l, the two indices having one row-major position. -/
theorem shapeCast_ab_agn_apply (x : (⟨2, ![a, b]⟩ : Shape).Idx → α) (h : (⟨2, ![a, b]⟩ : Shape).ShapeCasts ⟨3, ![a, g, n]⟩)
    (hb : b = g * n) (p : Fin a) (gi : Fin g) (l : Fin n) (q : Fin b) (hq : q.val = gi.val * n + l.val) :
    shapeCast ⟨3, ![a, g, n]⟩ x h (ix3 p gi l) = x (ix2 p q) :=
  shapeCast_apply x h _ _ (by
    rw [Shape.rowMajor_val_two, Shape.rowMajor_val_three]
    show p.val * b + q.val = (p.val * g + gi.val) * n + l.val
    rw [hq, hb]; ring)

/-- An [a, g, n] array recast as [a, b] (b = g · n): row p, column gi · n + l holds the entry at (p, gi, l). -/
theorem shapeCast_agn_ab_apply (x : (⟨3, ![a, g, n]⟩ : Shape).Idx → α) (h : (⟨3, ![a, g, n]⟩ : Shape).ShapeCasts ⟨2, ![a, b]⟩)
    (hb : b = g * n) (p : Fin a) (q : Fin b) (gi : Fin g) (l : Fin n) (hq : q.val = gi.val * n + l.val) :
    shapeCast ⟨2, ![a, b]⟩ x h (ix2 p q) = x (ix3 p gi l) :=
  shapeCast_apply x h _ _ (by
    rw [Shape.rowMajor_val_three, Shape.rowMajor_val_two]
    show (p.val * g + gi.val) * n + l.val = p.val * b + q.val
    rw [hq, hb]; ring)

/-- The sum of an [a, g, n] array along its last axis, at (p, gi): the sum over k of the array at (p, gi, k). -/
theorem lastSum3_apply {φ : FTy} (src : FVec Ideal ⟨3, ![a, g, n]⟩ φ) (acc : BitVec φ.bits)
    (h : (⟨3, ![a, g, n]⟩ : Shape).Reduces [2] ⟨2, ![a, g]⟩) (hφ : FKind.Formats φ) (hacc : acc = FKind.add.neutral φ hφ)
    (p : Fin a) (gi : Fin g) :
    multiReduction .add [2] ⟨2, ![a, g]⟩ src acc h hφ hacc (ix2 p gi) = ∑ k : Fin n, src (ix3 p gi k) := by
  refine (Ideal.multiReduction_add_single src acc h hφ hacc (ix2 p gi)).trans ?_
  refine Finset.sum_congr rfl fun k _ => congrArg src (funext fun c => Fin.ext ?_)
  rw [h.lift_val]
  match c with
  | ⟨0, _⟩ => rfl
  | ⟨1, _⟩ => rfl
  | ⟨2, _⟩ => rfl

/-- An [a, g] array recast as [a, g, 1] reads, at (p, gi, u), the array at (p, gi), whatever the unit coordinate u. -/
theorem shapeCast_ag_ag1_apply (x : (⟨2, ![a, g]⟩ : Shape).Idx → α) (h : (⟨2, ![a, g]⟩ : Shape).ShapeCasts ⟨3, ![a, g, 1]⟩)
    (p : Fin a) (gi : Fin g) (u : Fin 1) : shapeCast ⟨3, ![a, g, 1]⟩ x h (ix3 p gi u) = x (ix2 p gi) :=
  shapeCast_apply x h _ _ (by
    have hu : u.val = 0 := by omega
    rw [Shape.rowMajor_val_two, Shape.rowMajor_val_three]
    show p.val * g + gi.val = (p.val * g + gi.val) * 1 + u.val
    rw [hu, Nat.mul_one, Nat.add_zero])

/-- An [a, g, 1] array repeated along its unit axis to [a, g, n] reads, at (p, gi, l), the array at (p, gi, 0). -/
theorem broadcastTo_ag1_agn_apply (x : (⟨3, ![a, g, 1]⟩ : Shape).Idx → α) (h : (⟨3, ![a, g, 1]⟩ : Shape).Broadcasts ⟨3, ![a, g, n]⟩)
    (p : Fin a) (gi : Fin g) (l : Fin n) :
    broadcastTo ⟨3, ![a, g, n]⟩ x h (ix3 p gi l) = x (ix3 p gi (0 : Fin 1)) := by
  refine broadcastTo_apply x h (ix3 p gi l) (ix3 p gi (0 : Fin 1)) fun ax => ?_
  match ax with
  | ⟨0, _⟩ =>
    show p.val = if a = 1 then 0 else p.val
    split
    · have := p.isLt; omega
    · rfl
  | ⟨1, _⟩ =>
    show gi.val = if g = 1 then 0 else gi.val
    split
    · have := gi.isLt; omega
    · rfl
  | ⟨2, _⟩ => rfl

end Cert.GroupAxis

end
-- ==== Proof.LibLeadFold.lean ====
/-
  General lemmas for kernels that fold the two leading axes of an [a, b, n] array into one of length m = a · b before a
  matrix product and unfold them afterwards, that take a maximum along the last axis of an array, and that repeat a
  vector of length n over an [a, b, n] array; each read at one index.

  * `shapeCast_abn_mn_apply`: an [a, b, n] array recast as [m, n] reads, at (p · b + q, k), the array at (p, q, k).
  * `shapeCast_mn_abn_apply`: an [m, n] array recast as [a, b, n] reads, at (p, q, k), the array at (p · b + q, k).
  * `shapeCast_abpq_mpq_apply`: an [a, b, p, q] array recast as [m, p, q] reads, at (u · b + v, i, k), the array at (u, v, i, k).
  * `shapeCast_mpq_abpq_apply`: an [m, p, q] array recast as [a, b, p, q] reads, at (u, v, i, k), the array at (u · b + v, i, k).
  * `lastMax3_apply`: at the exact (extended-real) instance, the maximum of an [a, g, n] array along its last axis is,
    at (p, gi), the fold of max from the accumulator's value over k of the array at (p, gi, k).
  * `hostLastMax4_apply`: the host's one-operand reduce with a maximum body along the last axis of an [a, b, c, n]
    array is, at (p, q, r), the fold of max from the initial value over k of the array at (p, q, r, k).
  * `shapeCast_n_11n_apply`: a vector of length n recast as [1, 1, n] reads, at (u, v, k), the vector at k.
  * `broadcastTo_11n_abn_apply`: a [1, 1, n] array repeated over [a, b, n] reads, at (p, q, k), the array at (0, 0, k).
-/
import Idealize.ShloMosaic.Lib.ValueIdx
import Idealize.ShloMosaic.Lib.Pipeline.Value
import Idealize.ShloMosaic.PureOps.Ideal.Laws

noncomputable section

open scoped BigOperators

namespace Cert.LeadFold

open Idealize.ShloMosaic Idealize.ShloMosaic.ValueIdx

variable {α : Type} {a b c g m n : ℕ}

/-- An [a, b, n] array recast as [m, n] (m = a · b): row p · b + q, column k holds the entry at (p, q, k), the two
    indices having one row-major position. -/
theorem shapeCast_abn_mn_apply (x : (⟨3, ![a, b, n]⟩ : Shape).Idx → α) (h : (⟨3, ![a, b, n]⟩ : Shape).ShapeCasts ⟨2, ![m, n]⟩)
    (r : Fin m) (k : Fin n) (p : Fin a) (q : Fin b) (hr : r.val = p.val * b + q.val) :
    shapeCast ⟨2, ![m, n]⟩ x h (ix2 r k) = x (ix3 p q k) :=
  shapeCast_apply x h _ _ (by
    rw [Shape.rowMajor_val_three, Shape.rowMajor_val_two]
    show (p.val * b + q.val) * n + k.val = r.val * n + k.val
    rw [hr])

/-- An [m, n] array recast as [a, b, n] (m = a · b): position (p, q, k) holds the entry at row p · b + q, column k. -/
theorem shapeCast_mn_abn_apply (x : (⟨2, ![m, n]⟩ : Shape).Idx → α) (h : (⟨2, ![m, n]⟩ : Shape).ShapeCasts ⟨3, ![a, b, n]⟩)
    (p : Fin a) (q : Fin b) (k : Fin n) (r : Fin m) (hr : r.val = p.val * b + q.val) :
    shapeCast ⟨3, ![a, b, n]⟩ x h (ix3 p q k) = x (ix2 r k) :=
  shapeCast_apply x h _ _ (by
    rw [Shape.rowMajor_val_two, Shape.rowMajor_val_three]
    show r.val * n + k.val = (p.val * b + q.val) * n + k.val
    rw [hr])

/-- An [a, b, p, q] array recast as [m, p, q] (m = a · b): position (u · b + v, i, k) holds the entry at (u, v, i, k). -/
theorem shapeCast_abpq_mpq_apply {p q : ℕ} (x : (⟨4, ![a, b, p, q]⟩ : Shape).Idx → α)
    (h : (⟨4, ![a, b, p, q]⟩ : Shape).ShapeCasts ⟨3, ![m, p, q]⟩)
    (r : Fin m) (i : Fin p) (k : Fin q) (u : Fin a) (v : Fin b) (hr : r.val = u.val * b + v.val) :
    shapeCast ⟨3, ![m, p, q]⟩ x h (ix3 r i k) = x (ix4 u v i k) :=
  shapeCast_apply x h _ _ (by
    rw [Shape.rowMajor_val_four, Shape.rowMajor_val_three]
    show ((u.val * b + v.val) * p + i.val) * q + k.val = (r.val * p + i.val) * q + k.val
    rw [hr])

/-- An [m, p, q] array recast as [a, b, p, q] (m = a · b): position (u, v, i, k) holds the entry at (u · b + v, i, k). -/
theorem shapeCast_mpq_abpq_apply {p q : ℕ} (x : (⟨3, ![m, p, q]⟩ : Shape).Idx → α)
    (h : (⟨3, ![m, p, q]⟩ : Shape).ShapeCasts ⟨4, ![a, b, p, q]⟩)
    (u : Fin a) (v : Fin b) (i : Fin p) (k : Fin q) (r : Fin m) (hr : r.val = u.val * b + v.val) :
    shapeCast ⟨4, ![a, b, p, q]⟩ x h (ix4 u v i k) = x (ix3 r i k) :=
  shapeCast_apply x h _ _ (by
    rw [Shape.rowMajor_val_three, Shape.rowMajor_val_four]
    show (r.val * p + i.val) * q + k.val = ((u.val * b + v.val) * p + i.val) * q + k.val
    rw [hr])

/-- The maximum of an [a, g, n] array along its last axis, at (p, gi): the fold of max, from the accumulator's value,
    over k of the array at (p, gi, k). -/
theorem lastMax3_apply {φ : FTy} (src : FVec Ideal ⟨3, ![a, g, n]⟩ φ) (acc : BitVec φ.bits)
    (h : (⟨3, ![a, g, n]⟩ : Shape).Reduces [2] ⟨2, ![a, g]⟩) (hφ : FKind.Formats φ) (hacc : acc = FKind.maximumf.neutral φ hφ)
    (p : Fin a) (gi : Fin g) :
    multiReduction .maximumf [2] ⟨2, ![a, g]⟩ src acc h hφ hacc (ix2 p gi)
      = (Finset.univ : Finset (Fin n)).fold max (FloatOps.ofBits φ acc) (fun k => src (ix3 p gi k)) := by
  refine (Ideal.multiReduction_maximumf_single src acc h hφ hacc (ix2 p gi)).trans ?_
  refine congrArg (fun f : Fin n → Ideal φ => (Finset.univ : Finset (Fin n)).fold max (FloatOps.ofBits φ acc) f)
    (funext fun k => congrArg src (funext fun d => Fin.ext ?_))
  rw [h.lift_val]
  match d with
  | ⟨0, _⟩ => rfl
  | ⟨1, _⟩ => rfl
  | ⟨2, _⟩ => rfl

/-- The host's reduce with a maximum body along the last axis of an [a, b, c, n] array, at (p, q, r): the fold of max,
    from the initial value, over k of the array at (p, q, r, k). -/
theorem hostLastMax4_apply {φ : FTy} {u : Shape} (x : FVec Ideal ⟨4, ![a, b, c, n]⟩ φ) (init : FVec Ideal u φ)
    (h' : (⟨4, ![a, b, c, n]⟩ : Shape).ReducesTo [3] ⟨3, ![a, b, c]⟩) (h : (⟨4, ![a, b, c, n]⟩ : Shape).Reduces [3] ⟨3, ![a, b, c]⟩)
    (hu : 0 < u.numel) (p : Fin a) (q : Fin b) (r : Fin c) :
    Host.reduce FloatOps.maximumf x init h' hu (ix3 p q r)
      = (Finset.univ : Finset (Fin n)).fold max (init (Shape.Idx.first hu)) (fun k => x (ix4 p q r k)) := by
  rw [Host.reduce_eq_fold_single FloatOps.maximumf x init h' h hu]
  refine congrArg (fun f : Fin n → Ideal φ => (Finset.univ : Finset (Fin n)).fold max (init (Shape.Idx.first hu)) f)
    (funext fun k => congrArg x (funext fun d => Fin.ext ?_))
  rw [h.lift_val]
  match d with
  | ⟨0, _⟩ => rfl
  | ⟨1, _⟩ => rfl
  | ⟨2, _⟩ => rfl
  | ⟨3, _⟩ => rfl

/-- A vector of length n recast as [1, 1, n] reads, at (u, v, k), the vector at k, whatever the unit coordinates. -/
theorem shapeCast_n_11n_apply (x : (⟨1, ![n]⟩ : Shape).Idx → α) (h : (⟨1, ![n]⟩ : Shape).ShapeCasts ⟨3, ![1, 1, n]⟩)
    (u v : Fin 1) (k : Fin n) : shapeCast ⟨3, ![1, 1, n]⟩ x h (ix3 u v k) = x (ix1 k) :=
  shapeCast_apply x h _ _ (by
    have hu : u.val = 0 := by omega
    have hv : v.val = 0 := by omega
    rw [Shape.rowMajor_val_one, Shape.rowMajor_val_three]
    show k.val = (u.val * 1 + v.val) * n + k.val
    simp [hu, hv])

/-- A [1, 1, n] array repeated over [a, b, n] reads, at (p, q, k), the array at (0, 0, k). -/
theorem broadcastTo_11n_abn_apply (x : (⟨3, ![1, 1, n]⟩ : Shape).Idx → α) (h : (⟨3, ![1, 1, n]⟩ : Shape).Broadcasts ⟨3, ![a, b, n]⟩)
    (p : Fin a) (q : Fin b) (k : Fin n) :
    broadcastTo ⟨3, ![a, b, n]⟩ x h (ix3 p q k) = x (ix3 (0 : Fin 1) (0 : Fin 1) k) := by
  refine broadcastTo_apply x h (ix3 p q k) (ix3 (0 : Fin 1) (0 : Fin 1) k) fun ax => ?_
  match ax with
  | ⟨0, _⟩ => rfl
  | ⟨1, _⟩ => rfl
  | ⟨2, _⟩ =>
    show k.val = if n = 1 then 0 else k.val
    split
    · have := k.isLt; omega
    · rfl

end Cert.LeadFold

end
-- ==== Proof.Attn.lean ====
/-
  The specification: one attention problem over a [256, 256] slab (256 positions, 256 channels), on the extended reals.

  From a slab X, three weight matrices with their bias vectors and a scale vector g:
    Q = X·Wq + bq,  K = X·Wk + bk,  V = X·Wv + bv          (rows times a matrix, the bias added to every row)
    S(i, j) = Σ_c Q(i, c) · K(j, c)                          (the scores)
    M(i)    = max(−∞, max_j S(i, j))                         (a row's maximum, folded from −∞)
    E(i, j) = exp(S(i, j) − M(i)),   D(i) = Σ_j E(i, j),   P(i, j) = E(i, j) / D(i)     (the row-wise softmax)
    O(i, c) = Σ_j P(i, j) · V(j, c)
    result(i, c) = g(c) · O(i, c) + X(i, c).
  Both programs compute this, slab by slab, with every sum taken in this order, so no law of arithmetic beyond the
  definitions is needed to identify them. The −∞ and the zero the programs start their folds from are kept as the
  float words they are written as.
-/
import Idealize.ShloMosaic.PureOps.Ideal

noncomputable section

open scoped BigOperators

namespace Cert.Attn

open Idealize.ShloMosaic

/-- The word both programs start a row's maximum from (−∞ as an f32 pattern), as an extended real. -/
abbrev negInf : EReal := Ideal.ofBits .f32 0xFF800000#32

/-- Rows times a matrix plus a bias: (X·W + b)(i, d). -/
def proj (X W : Fin 256 → Fin 256 → EReal) (b : Fin 256 → EReal) (i d : Fin 256) : EReal :=
  (∑ k : Fin 256, X i k * W k d) + b d

/-- The scores: S(i, j) = Σ_c Q(i, c) · K(j, c). -/
def score (Q K : Fin 256 → Fin 256 → EReal) (i j : Fin 256) : EReal := ∑ c : Fin 256, Q i c * K j c

/-- A row's maximum, folded from −∞ (and once more compared with −∞, as both programs do). -/
def rowMax (S : Fin 256 → Fin 256 → EReal) (i : Fin 256) : EReal :=
  max negInf ((Finset.univ : Finset (Fin 256)).fold max negInf (fun j => S i j))

/-- The exponentials of a row's scores less the row's maximum. -/
def expo (S : Fin 256 → Fin 256 → EReal) (i j : Fin 256) : EReal := Ideal.exp (S i j - rowMax S i)

/-- The row-wise softmax: each exponential over the row's sum of them. -/
def prob (S : Fin 256 → Fin 256 → EReal) (i j : Fin 256) : EReal := Ideal.div (expo S i j) (∑ l : Fin 256, expo S i l)

/-- The weights applied to the values: O(i, c) = Σ_j P(i, j) · V(j, c). -/
def attend (P V : Fin 256 → Fin 256 → EReal) (i c : Fin 256) : EReal := ∑ j : Fin 256, P i j * V j c

/-- One slab's result: g(c) · O(i, c) + X(i, c), with O the attention of the slab's three projections. -/
def slab (X Wq : Fin 256 → Fin 256 → EReal) (bq : Fin 256 → EReal) (Wk : Fin 256 → Fin 256 → EReal) (bk : Fin 256 → EReal)
    (Wv : Fin 256 → Fin 256 → EReal) (bv g : Fin 256 → EReal) (i c : Fin 256) : EReal :=
  g c * attend (prob (score (proj X Wq bq) (proj X Wk bk))) (proj X Wv bv) i c + X i c

end Cert.Attn

end
-- ==== Proof.KernelBlock.lean ====
/-
  The kernel body on one [8, 256, 256] block, read at one entry (t, i, c) on the extended reals: slab t of the block goes
  through the specification's attention, independently of the other seven.

  The body folds the block's two leading axes into 2048 rows for the three projections (row 256·t + i of the folded
  array is row i of slab t) and unfolds them again; the scores, the softmax along the last axis and the weighted
  values are taken slab by slab; a change of float format is the identity on the extended reals.
-/
import proofs.«116155_j69750268887504_1_alg».proof.Proof.Gen.KernelIdeal.Frame
import proofs.«116155_j69750268887504_1_alg».proof.Proof.KernelOps
import proofs.«116155_j69750268887504_1_alg».proof.Proof.LibGroupAxis
import proofs.«116155_j69750268887504_1_alg».proof.Proof.LibLeadFold
import proofs.«116155_j69750268887504_1_alg».proof.Proof.Attn
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Block

open Cert.KernelIdeal Cert.KernelIdeal.Gen Cert.KernelIdeal.Ops Idealize.ShloMosaic Idealize.ShloMosaic.ValueIdx Cert.Attn

/-- A change of float format is the identity on the extended reals. -/
private theorem trunc_at {s : Shape} (a : FVec Ideal s .f32) (i : s.Idx) :
    ((truncf .bf16 a bitsLt_bf16_f32 : FVec Ideal s .bf16) i : EReal) = a i := rfl

/-! ## The three projections -/

/-- The block folded to 2048 rows: row 256·t + i, column k is the block at (t, i, k). -/
theorem folded_apply (v0 : Vec Ideal S8x256x256 .f32) (t : Fin 8) (i k : Fin 256) (r : Fin 2048) (hr : r.val = t.val * 256 + i.val) :
    k0_pay3 (F := Ideal) v0 (ix2 r k) = v0 (ix3 t i k) := by
  unfold k0_pay3 k0_pay2
  refine (LeadFold.shapeCast_abn_mn_apply _ shapeCasts_S8x256x256_S2048x256 r k t i hr).trans ?_
  refine (trunc_at _ _).trans ?_
  exact congrFun (shapeCast_self v0 shapeCasts_S8x256x256_S8x256x256) _

/-- A projection unfolded back to [8, 256, 256]: at (t, i, d) row i of slab t times the matrix's column d, plus the
    bias at d. -/
theorem proj_apply (v0 : Vec Ideal S8x256x256 .f32) (w : Vec Ideal S256x256 .f32) (y : Vec Ideal S1x256 .f32) (t : Fin 8) (i d : Fin 256) :
    shapeCast S8x256x256 (addf (matmul dot_S2048x256_S256x256_S2048x256_1_0_0_1_n_n none (k0_pay3 (F := Ideal) v0) (truncf .bf16 w bitsLt_bf16_f32) (constant (F := Ideal) S2048x256 .f32 0x00000000#32))
        (broadcastTo S2048x256 (shapeCast S1x256 (shapeCast S256 y shapeCasts_S1x256_S256) shapeCasts_S256_S1x256) broadcasts_S1x256_S2048x256))
      shapeCasts_S2048x256_S8x256x256 (ix3 t i d)
      = proj (fun i' k => v0 (ix3 t i' k)) (fun k d' => w (ix2 k d')) (fun d' => y (ix2 (0 : Fin 1) d')) i d := by
  have hlt : t.val * 256 + i.val < 2048 := by have := t.isLt; have := i.isLt; omega
  refine (LeadFold.shapeCast_mn_abn_apply _ shapeCasts_S2048x256_S8x256x256 t i d ⟨t.val * 256 + i.val, hlt⟩ rfl).trans ?_
  rw [addf_apply, dense_apply, broadcastTo_1b_ab_apply, shapeCast_a_1a_apply, shapeCast_1a_a_apply]
  unfold proj
  refine congrArg₂ (· + ·) (Finset.sum_congr rfl fun k _ => ?_) rfl
  exact congrArg₂ (· * ·) (folded_apply v0 t i k ⟨t.val * 256 + i.val, hlt⟩ rfl) rfl

/-- The values' projection, as the body leaves it for the last product. -/
theorem values_apply (v0 : Vec Ideal S8x256x256 .f32) (v8 : Vec Ideal S256x256 .f32) (v14 : Vec Ideal S1x256 .f32) (t : Fin 8) (j c : Fin 256) :
    k0_pay5 (F := Ideal) v0 v8 v14 (ix3 t j c)
      = proj (fun i' k => v0 (ix3 t i' k)) (fun k d => v8 (ix2 k d)) (fun d => v14 (ix2 (0 : Fin 1) d)) j c := by
  unfold k0_pay5
  refine (trunc_at _ _).trans ?_
  exact proj_apply v0 v8 v14 t j c

/-! ## The scores -/

/-- The scores at (t, i, j): rows i and j of slab t's two projections against each other. -/
theorem scores_apply (v0 : Vec Ideal S8x256x256 .f32) (v4 v6 : Vec Ideal S256x256 .f32) (v10 v12 : Vec Ideal S1x256 .f32) (t : Fin 8) (i j : Fin 256) :
    k0_pay6 (F := Ideal) v0 v4 v6 v10 v12 (ix3 t i j)
      = score (proj (fun i' k => v0 (ix3 t i' k)) (fun k d => v4 (ix2 k d)) (fun d => v10 (ix2 (0 : Fin 1) d)))
          (proj (fun i' k => v0 (ix3 t i' k)) (fun k d => v6 (ix2 k d)) (fun d => v12 (ix2 (0 : Fin 1) d))) i j := by
  unfold k0_pay6
  refine (scoreMM_apply _ _ t i j).trans ?_
  unfold score
  refine Finset.sum_congr rfl fun c _ => congrArg₂ (· * ·) ?_ ?_
  · exact (trunc_at _ _).trans (proj_apply v0 v4 v10 t i c)
  · exact (trunc_at _ _).trans (proj_apply v0 v6 v12 t j c)

/-! ## The softmax along the last axis, slab by slab -/

/-- A row's maximum as the body forms it — the last-axis maximum from −∞, compared once more with −∞, kept as a
    unit axis and repeated along the row — at (t, i, j). -/
theorem rowMax_apply (s : FVec Ideal S8x256x256 .f32) (t : Fin 8) (i j : Fin 256) :
    broadcastTo S8x256x256 (shapeCast S8x256x1 (maximumf (broadcast S8x256 (Scalar.ofBits (F := Ideal) .f32 0xFF800000#32))
        (multiReduction .maximumf [2] S8x256 s 0xFF800000#32 reduces_S8x256x256_S8x256 (.inl rfl) rfl)) shapeCasts_S8x256_S8x256x1)
      broadcasts_S8x256x1_S8x256x256 (ix3 t i j)
      = rowMax (fun i' j' => s (ix3 t i' j')) i := by
  refine (GroupAxis.broadcastTo_ag1_agn_apply _ broadcasts_S8x256x1_S8x256x256 t i j).trans ?_
  refine (GroupAxis.shapeCast_ag_ag1_apply _ shapeCasts_S8x256_S8x256x1 t i 0).trans ?_
  show max (Ideal.ofBits .f32 0xFF800000#32)
    (multiReduction .maximumf [2] S8x256 s 0xFF800000#32 reduces_S8x256x256_S8x256 (.inl rfl) rfl (ix2 t i)) = _
  unfold rowMax
  exact congrArg (max negInf) (LeadFold.lastMax3_apply s _ reduces_S8x256x256_S8x256 (.inl rfl) rfl t i)

/-- The exponentials at (t, i, j). -/
theorem expo_apply (s : FVec Ideal S8x256x256 .f32) (t : Fin 8) (i j : Fin 256) :
    exp (subf s (broadcastTo S8x256x256 (shapeCast S8x256x1 (maximumf (broadcast S8x256 (Scalar.ofBits (F := Ideal) .f32 0xFF800000#32))
        (multiReduction .maximumf [2] S8x256 s 0xFF800000#32 reduces_S8x256x256_S8x256 (.inl rfl) rfl)) shapeCasts_S8x256_S8x256x1)
      broadcasts_S8x256x1_S8x256x256)) (ix3 t i j)
      = expo (fun i' j' => s (ix3 t i' j')) i j := by
  show Ideal.exp (s (ix3 t i j) - _) = _
  rw [rowMax_apply]
  rfl

/-- A row's sum, kept as a unit axis and repeated along the row, at (t, i, j). -/
theorem rowSum_apply (e : FVec Ideal S8x256x256 .f32) (t : Fin 8) (i j : Fin 256) :
    broadcastTo S8x256x256 (shapeCast S8x256x1 (multiReduction .add [2] S8x256 e 0x00000000#32 reduces_S8x256x256_S8x256 (.inl rfl) rfl)
        shapeCasts_S8x256_S8x256x1) broadcasts_S8x256x1_S8x256x256 (ix3 t i j)
      = ∑ l : Fin 256, e (ix3 t i l) := by
  refine (GroupAxis.broadcastTo_ag1_agn_apply _ broadcasts_S8x256x1_S8x256x256 t i j).trans ?_
  refine (GroupAxis.shapeCast_ag_ag1_apply _ shapeCasts_S8x256_S8x256x1 t i 0).trans ?_
  exact GroupAxis.lastSum3_apply e _ reduces_S8x256x256_S8x256 (.inl rfl) rfl t i

/-! ## The block's result -/

/-- The stored value at (t, i, c), from the scores s, the values v, the scale g and the block x:
    g(c) · Σ_j softmax(s)(t, i, j) · v(t, j, c) + x(t, i, c). -/
theorem stored_apply (v1 : FVec Ideal S8x256x256 .f32) (v17 : FVec Ideal S256 .f32) (v35 : FVec Ideal S8x256x256 .bf16) (v36 : FVec Ideal S8x256x256 .f32)
    (t : Fin 8) (i c : Fin 256) :
    k0_pay1 (F := Ideal) v1 v17 v35 v36 (ix3 t i c)
      = v17 (ix1 c) * attend (prob (fun i' j' => v36 (ix3 t i' j'))) (fun j c' => v35 (ix3 t j c')) i c + v1 (ix3 t i c) := by
  unfold k0_pay1
  refine congrArg₂ (· + ·) (congrArg₂ (· * ·) ?_ ?_) rfl
  · exact (LeadFold.broadcastTo_11n_abn_apply _ broadcasts_S1x1x256_S8x256x256 t i c).trans
      (LeadFold.shapeCast_n_11n_apply v17 shapeCasts_S256_S1x1x256 0 0 c)
  · refine (attendMM_apply _ _ t i c).trans ?_
    unfold attend
    refine Finset.sum_congr rfl fun j _ => congrArg₂ (· * ·) ?_ rfl
    refine (trunc_at _ _).trans ?_
    refine (divf_apply _ _ _).trans ?_
    unfold prob
    refine congrArg₂ Ideal.div (expo_apply v36 t i j) ?_
    refine (rowSum_apply _ t i j).trans ?_
    exact Finset.sum_congr rfl fun l _ => expo_apply v36 t i l

/-- What the body leaves in the output block, at (t, i, c): the specification's slab of slab t of the input block. -/
theorem out_apply (x0 : Vec Ideal S8x256x256 .f32) (x1 : Vec Ideal S256x256 .f32) (x2 : Vec Ideal S1x256 .f32) (x3 : Vec Ideal S256x256 .f32)
    (x4 : Vec Ideal S1x256 .f32) (x5 : Vec Ideal S256x256 .f32) (x6 x7 : Vec Ideal S1x256 .f32) (t : Fin 8) (i c : Fin 256) :
    out0_8 (F := Ideal) x0 x1 x2 x3 x4 x5 x6 x7 (ix3 t i c)
      = slab (fun i' k => x0 (ix3 t i' k)) (fun k d => x1 (ix2 k d)) (fun d => x2 (ix2 (0 : Fin 1) d)) (fun k d => x3 (ix2 k d))
          (fun d => x4 (ix2 (0 : Fin 1) d)) (fun k d => x5 (ix2 k d)) (fun d => x6 (ix2 (0 : Fin 1) d)) (fun d => x7 (ix2 (0 : Fin 1) d)) i c := by
  have hz : (![0, 0, 0] : Fin 3 → Nat) = fun _ => 0 := funext fun a => by match a with | ⟨0, _⟩ => rfl | ⟨1, _⟩ => rfl | ⟨2, _⟩ => rfl
  have hz2 : (![0, 0] : Fin 2 → Nat) = fun _ => 0 := funext fun a => by match a with | ⟨0, _⟩ => rfl | ⟨1, _⟩ => rfl
  unfold out0_8
  rw [View.canon_unit_zero hz]
  simp only [View.ld_unit_zero (S := S8x256x256) hz, View.ld_unit_zero (S := S256x256) hz2, View.ld_unit_zero (S := S1x256) hz2]
  rw [stored_apply]
  unfold slab
  refine congrArg₂ (· + ·) (congrArg₂ (· * ·) ?_ ?_) ?_
  · unfold k0_pay4
    exact shapeCast_1a_a_apply x7 shapeCasts_S1x256_S256 c
  · refine congrArg₂ (fun P V => attend P V i c) ?_ ?_
    · refine congrArg prob (funext fun i' => funext fun j' => ?_)
      exact scores_apply x0 x1 x3 x2 x4 t i' j'
    · exact funext fun j => funext fun c' => values_apply x0 x5 x6 t j c'
  · unfold k0_pay2
    exact congrFun (shapeCast_self x0 shapeCasts_S8x256x256_S8x256x256) _

end Cert.KernelIdeal.Block

end
-- ==== Proof.AttnArray.lean ====
/-
  The specification over whole arrays: from an [8, 256, 256, 256] array x (8 · 256 slabs of 256 positions by 256
  channels), three [256, 256] matrices with their [256] biases and a [256] scale, the result's entry (b, h, i, c) is the
  attention of the slab x(b, h, ·, ·) at (i, c). Each slab is treated alone.
-/
import proofs.«116155_j69750268887504_1_alg».proof.Proof.Attn
import Idealize.ShloMosaic.Lib.ValueIdx

noncomputable section

namespace Cert.Attn

open Idealize.ShloMosaic Idealize.ShloMosaic.ValueIdx

/-- The result array: entry (b, h, i, c) is `slab` of x(b, h, ·, ·) at (i, c). -/
def whole (x : (⟨4, ![8, 256, 256, 256]⟩ : Shape).Idx → EReal) (wq : (⟨2, ![256, 256]⟩ : Shape).Idx → EReal) (bq : (⟨1, ![256]⟩ : Shape).Idx → EReal) (wk : (⟨2, ![256, 256]⟩ : Shape).Idx → EReal) (bk : (⟨1, ![256]⟩ : Shape).Idx → EReal)
    (wv : (⟨2, ![256, 256]⟩ : Shape).Idx → EReal) (bv g : (⟨1, ![256]⟩ : Shape).Idx → EReal) : (⟨4, ![8, 256, 256, 256]⟩ : Shape).Idx → EReal := fun j =>
  slab (fun i' k => x (ix4 (j 0) (j 1) i' k)) (fun k d => wq (ix2 k d)) (fun d => bq (ix1 d)) (fun k d => wk (ix2 k d)) (fun d => bk (ix1 d))
    (fun k d => wv (ix2 k d)) (fun d => bv (ix1 d)) (fun d => g (ix1 d)) (j 2) (j 3)

end Cert.Attn

end
-- ==== Proof.KernelValue.lean ====
/-
  The kernel's run, read: what the result array holds when the program ends.

  The program reshapes x to [2048, 256, 256] (slab 256·b + h is x(b, h, ·, ·)) and each bias and the scale to one row,
  runs the body once per block of 8 consecutive slabs — point t reads and writes slabs 8·t … 8·t + 7, every other
  operand whole —, and reshapes the [2048, 256, 256] result back to [8, 256, 256, 256]. Since the body treats each slab
  of its block alone, what point t writes back is block t of ONE array, the attention of every slab; the 256 blocks
  tile the array; and the reshape back puts slab 256·b + h at (b, h).
-/
import proofs.«116155_j69750268887504_1_alg».proof.Proof.Gen.KernelIdeal.Frame
import proofs.«116155_j69750268887504_1_alg».proof.Proof.KernelBlock
import proofs.«116155_j69750268887504_1_alg».proof.Proof.AttnArray
import proofs.«116155_j69750268887504_1_alg».proof.Proof.LibLeadFold
import Idealize.ShloMosaic.Lib.Pipeline.Value
import Idealize.ShloMosaic.Lib.StableHlo.Run
import Idealize.ShloMosaic.Lib.ValueIdx
import Idealize.ShloMosaic.Lib.ValueLayout

set_option maxRecDepth 16384

noncomputable section

namespace Cert.KernelIdeal.RunValue

open Cert.KernelIdeal Cert.KernelIdeal.Gen Idealize.ShloMosaic Idealize.ShloMosaic.TcCoe Idealize.ShloMosaic.ValueIdx
open Idealize.SL.Sem Cert.Attn
open Idealize.ShloMosaic.Pipeline (Dat Cfg Window)

variable (m : (ℓ : Loc nD τ sig) → Buf (Elt Ideal) ℓ) (ρ : Dev nD → PrngReg)

/-- The attention of equal data at equal positions. -/
theorem slab_congr {X X' Wq Wq' Wk Wk' Wv Wv' : Fin 256 → Fin 256 → EReal} {bq bq' bk bk' bv bv' g g' : Fin 256 → EReal} {i i' c c' : Fin 256}
    (hX : X = X') (hWq : Wq = Wq') (hbq : bq = bq') (hWk : Wk = Wk') (hbk : bk = bk') (hWv : Wv = Wv') (hbv : bv = bv') (hg : g = g')
    (hi : i = i') (hc : c = c') : slab X Wq bq Wk bk Wv bv g i c = slab X' Wq' bq' Wk' bk' Wv' bv' g' i' c' := by
  subst hX hWq hbq hWk hbk hWv hbv hg hi hc; rfl

/-! ## The printed index maps, over the grid -/

/-- Point t's blocks: the block of x and of the result is the t-th along the slabs; every other operand's is the whole. -/
theorem idx_facts : ∀ t : Fin cfg0.N, win0_0.index t (0 : Fin 3) = win0_8.index t (0 : Fin 3)
    ∧ win0_0.index t (1 : Fin 3) = 0
    ∧ win0_0.index t (2 : Fin 3) = 0
    ∧ win0_8.index t (0 : Fin 3) = t.val
    ∧ win0_8.index t (1 : Fin 3) = 0
    ∧ win0_8.index t (2 : Fin 3) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0 :=
  (by decide +kernel : ∀ t : Fin grid0.N, _)

/-! ## The input blocks at a point, read off the arrays the region finds -/

/-- Slab y₀ of point t's block of x is slab 8·t + y₀ of the reshaped x. -/
theorem blk0_apply (c : Dev nD) (t : Fin cfg0.N) (y : S8x256x256.Idx) (i' k : Fin 256) :
    iblk m c 0 t (ix3 (y 0) i' k) = V m c main_v0 (ix3 ((((cfg0.win 8).blk t).view.emb y) 0) i' k) := by
  obtain ⟨e00, e01, e02, e80, e81, e82, e10, e11, e20, e21, e30, e31, e40, e41, e50, e51, e60, e61, e70, e71⟩ := idx_facts t
  show V m c main_v0 (((cfg0.win 0).blk t).view.emb (ix3 (y 0) i' k)) = _
  have e : ((cfg0.win 0).blk t).view.emb (ix3 (y 0) i' k) = ix3 ((((cfg0.win 8).blk t).view.emb y) 0) i' k := funext fun a => Fin.ext (by
    match a with
    | ⟨0, _⟩ => show win0_0.index t (0 : Fin 3) * 8 + 1 * (y 0).val = win0_8.index t (0 : Fin 3) * 8 + 1 * (y 0).val; omega
    | ⟨1, _⟩ => show win0_0.index t (1 : Fin 3) * 256 + 1 * i'.val = i'.val; omega
    | ⟨2, _⟩ => show win0_0.index t (2 : Fin 3) * 256 + 1 * k.val = k.val; omega)
  rw [e]
  rfl

theorem blk1_apply (c : Dev nD) (t : Fin cfg0.N) (k d : Fin 256) :
    iblk m c 1 t (ix2 k d) = V m c main_arg1 (ix2 k d) := by
  obtain ⟨e00, e01, e02, e80, e81, e82, e10, e11, e20, e21, e30, e31, e40, e41, e50, e51, e60, e61, e70, e71⟩ := idx_facts t
  show V m c main_arg1 (((cfg0.win 1).blk t).view.emb (ix2 k d)) = _
  have e : ((cfg0.win 1).blk t).view.emb (ix2 k d) = ix2 k d := funext fun a => Fin.ext (by
    match a with
    | ⟨0, _⟩ => show win0_1.index t (0 : Fin 2) * 256 + 1 * k.val = k.val; omega
    | ⟨1, _⟩ => show win0_1.index t (1 : Fin 2) * 256 + 1 * d.val = d.val; omega)
  rw [e]

theorem blk2_apply (c : Dev nD) (t : Fin cfg0.N) (d : Fin 256) :
    iblk m c 2 t (ix2 (0 : Fin 1) d) = V m c main_v1 (ix2 (0 : Fin 1) d) := by
  obtain ⟨e00, e01, e02, e80, e81, e82, e10, e11, e20, e21, e30, e31, e40, e41, e50, e51, e60, e61, e70, e71⟩ := idx_facts t
  show V m c main_v1 (((cfg0.win 2).blk t).view.emb (ix2 (0 : Fin 1) d)) = _
  have e : ((cfg0.win 2).blk t).view.emb (ix2 (0 : Fin 1) d) = ix2 (0 : Fin 1) d := funext fun a => Fin.ext (by
    match a with
    | ⟨0, _⟩ => show win0_2.index t (0 : Fin 2) * 1 + 1 * 0 = 0; omega
    | ⟨1, _⟩ => show win0_2.index t (1 : Fin 2) * 256 + 1 * d.val = d.val; omega)
  rw [e]

theorem blk3_apply (c : Dev nD) (t : Fin cfg0.N) (k d : Fin 256) :
    iblk m c 3 t (ix2 k d) = V m c main_arg3 (ix2 k d) := by
  obtain ⟨e00, e01, e02, e80, e81, e82, e10, e11, e20, e21, e30, e31, e40, e41, e50, e51, e60, e61, e70, e71⟩ := idx_facts t
  show V m c main_arg3 (((cfg0.win 3).blk t).view.emb (ix2 k d)) = _
  have e : ((cfg0.win 3).blk t).view.emb (ix2 k d) = ix2 k d := funext fun a => Fin.ext (by
    match a with
    | ⟨0, _⟩ => show win0_3.index t (0 : Fin 2) * 256 + 1 * k.val = k.val; omega
    | ⟨1, _⟩ => show win0_3.index t (1 : Fin 2) * 256 + 1 * d.val = d.val; omega)
  rw [e]

theorem blk4_apply (c : Dev nD) (t : Fin cfg0.N) (d : Fin 256) :
    iblk m c 4 t (ix2 (0 : Fin 1) d) = V m c main_v2 (ix2 (0 : Fin 1) d) := by
  obtain ⟨e00, e01, e02, e80, e81, e82, e10, e11, e20, e21, e30, e31, e40, e41, e50, e51, e60, e61, e70, e71⟩ := idx_facts t
  show V m c main_v2 (((cfg0.win 4).blk t).view.emb (ix2 (0 : Fin 1) d)) = _
  have e : ((cfg0.win 4).blk t).view.emb (ix2 (0 : Fin 1) d) = ix2 (0 : Fin 1) d := funext fun a => Fin.ext (by
    match a with
    | ⟨0, _⟩ => show win0_4.index t (0 : Fin 2) * 1 + 1 * 0 = 0; omega
    | ⟨1, _⟩ => show win0_4.index t (1 : Fin 2) * 256 + 1 * d.val = d.val; omega)
  rw [e]

theorem blk5_apply (c : Dev nD) (t : Fin cfg0.N) (k d : Fin 256) :
    iblk m c 5 t (ix2 k d) = V m c main_arg5 (ix2 k d) := by
  obtain ⟨e00, e01, e02, e80, e81, e82, e10, e11, e20, e21, e30, e31, e40, e41, e50, e51, e60, e61, e70, e71⟩ := idx_facts t
  show V m c main_arg5 (((cfg0.win 5).blk t).view.emb (ix2 k d)) = _
  have e : ((cfg0.win 5).blk t).view.emb (ix2 k d) = ix2 k d := funext fun a => Fin.ext (by
    match a with
    | ⟨0, _⟩ => show win0_5.index t (0 : Fin 2) * 256 + 1 * k.val = k.val; omega
    | ⟨1, _⟩ => show win0_5.index t (1 : Fin 2) * 256 + 1 * d.val = d.val; omega)
  rw [e]

theorem blk6_apply (c : Dev nD) (t : Fin cfg0.N) (d : Fin 256) :
    iblk m c 6 t (ix2 (0 : Fin 1) d) = V m c main_v3 (ix2 (0 : Fin 1) d) := by
  obtain ⟨e00, e01, e02, e80, e81, e82, e10, e11, e20, e21, e30, e31, e40, e41, e50, e51, e60, e61, e70, e71⟩ := idx_facts t
  show V m c main_v3 (((cfg0.win 6).blk t).view.emb (ix2 (0 : Fin 1) d)) = _
  have e : ((cfg0.win 6).blk t).view.emb (ix2 (0 : Fin 1) d) = ix2 (0 : Fin 1) d := funext fun a => Fin.ext (by
    match a with
    | ⟨0, _⟩ => show win0_6.index t (0 : Fin 2) * 1 + 1 * 0 = 0; omega
    | ⟨1, _⟩ => show win0_6.index t (1 : Fin 2) * 256 + 1 * d.val = d.val; omega)
  rw [e]

theorem blk7_apply (c : Dev nD) (t : Fin cfg0.N) (d : Fin 256) :
    iblk m c 7 t (ix2 (0 : Fin 1) d) = V m c main_v4 (ix2 (0 : Fin 1) d) := by
  obtain ⟨e00, e01, e02, e80, e81, e82, e10, e11, e20, e21, e30, e31, e40, e41, e50, e51, e60, e61, e70, e71⟩ := idx_facts t
  show V m c main_v4 (((cfg0.win 7).blk t).view.emb (ix2 (0 : Fin 1) d)) = _
  have e : ((cfg0.win 7).blk t).view.emb (ix2 (0 : Fin 1) d) = ix2 (0 : Fin 1) d := funext fun a => Fin.ext (by
    match a with
    | ⟨0, _⟩ => show win0_7.index t (0 : Fin 2) * 1 + 1 * 0 = 0; omega
    | ⟨1, _⟩ => show win0_7.index t (1 : Fin 2) * 256 + 1 * d.val = d.val; omega)
  rw [e]

/-! ## What a point writes back, and the whole array -/

/-- The array the region leaves: slab n is the attention of slab n of the reshaped x. -/
def region (c : Dev nD) : S2048x256x256.Idx → EReal := fun n =>
  slab (fun i' k => V m c main_v0 (ix3 (n 0) i' k)) (fun k d => V m c main_arg1 (ix2 k d)) (fun d => V m c main_v1 (ix2 (0 : Fin 1) d))
    (fun k d => V m c main_arg3 (ix2 k d)) (fun d => V m c main_v2 (ix2 (0 : Fin 1) d)) (fun k d => V m c main_arg5 (ix2 k d))
    (fun d => V m c main_v3 (ix2 (0 : Fin 1) d)) (fun d => V m c main_v4 (ix2 (0 : Fin 1) d)) (n 1) (n 2)

/-- The body's result at an entry of its block, the entry's coordinates read off the index. -/
theorem out_at (x0 : Vec Ideal S8x256x256 .f32) (x1 : Vec Ideal S256x256 .f32) (x2 : Vec Ideal S1x256 .f32) (x3 : Vec Ideal S256x256 .f32)
    (x4 : Vec Ideal S1x256 .f32) (x5 : Vec Ideal S256x256 .f32) (x6 x7 : Vec Ideal S1x256 .f32) (y : S8x256x256.Idx) :
    out0_8 (F := Ideal) x0 x1 x2 x3 x4 x5 x6 x7 y
      = slab (fun i' k => x0 (ix3 (y 0) i' k)) (fun k d => x1 (ix2 k d)) (fun d => x2 (ix2 (0 : Fin 1) d)) (fun k d => x3 (ix2 k d))
          (fun d => x4 (ix2 (0 : Fin 1) d)) (fun k d => x5 (ix2 k d)) (fun d => x6 (ix2 (0 : Fin 1) d)) (fun d => x7 (ix2 (0 : Fin 1) d)) (y 1) (y 2) :=
  (congrArg (out0_8 (F := Ideal) x0 x1 x2 x3 x4 x5 x6 x7) (eq_ix3 y)).trans (Block.out_apply x0 x1 x2 x3 x4 x5 x6 x7 (y 0) (y 1) (y 2))

/-- What point t writes back is block t of `region`. -/
theorem flushed_eq (c : Dev nD) (t : Fin cfg0.N) :
    (dats m 0 c).flushed 8 t = ((cfg0.win 8).blk t).view.read (Elt Ideal) (region m c) := by
  show (cfg0.win 8).cut (grid0.coords t) ((dats m 0 c).after 8 t) = _
  rw [after0_8]
  obtain ⟨e00, e01, e02, e80, e81, e82, e10, e11, e20, e21, e30, e31, e40, e41, e50, e51, e60, e61, e70, e71⟩ := idx_facts t
  funext y
  show out0_8 (iblk m c 0 t) (iblk m c 1 t) (iblk m c 2 t) (iblk m c 3 t) (iblk m c 4 t) (iblk m c 5 t) (iblk m c 6 t) (iblk m c 7 t) y
      = region m c (((cfg0.win 8).blk t).view.emb y)
  refine (out_at (iblk m c 0 t) (iblk m c 1 t) (iblk m c 2 t) (iblk m c 3 t) (iblk m c 4 t) (iblk m c 5 t) (iblk m c 6 t) (iblk m c 7 t) y).trans ?_
  unfold region
  refine slab_congr (funext fun i' => funext fun k => blk0_apply m c t y i' k)
    (funext fun k => funext fun d => blk1_apply m c t k d) (funext fun d => blk2_apply m c t d)
    (funext fun k => funext fun d => blk3_apply m c t k d) (funext fun d => blk4_apply m c t d)
    (funext fun k => funext fun d => blk5_apply m c t k d) (funext fun d => blk6_apply m c t d) (funext fun d => blk7_apply m c t d) ?_ ?_
  · exact Fin.ext (by show (y 1).val = win0_8.index t (1 : Fin 3) * 256 + 1 * (y 1).val; omega)
  · exact Fin.ext (by show (y 2).val = win0_8.index t (2 : Fin 3) * 256 + 1 * (y 2).val; omega)

/-- An index of the result is in point t's block iff each coordinate is in the block's range on its axis. -/
theorem mem_blk (t : Fin cfg0.N) (i : S2048x256x256.Idx) :
    i ∈ ((cfg0.win 8).blk t).view.set ↔ ∀ a : Fin 3, win0_8.index t a * S8x256x256.size a ≤ (i a).val ∧ (i a).val < win0_8.index t a * S8x256x256.size a + S8x256x256.size a := by
  show i ∈ ((View.whole main_v5).slice (win0_8.rect t)).set ↔ _
  rw [View.set_slice_whole, Rect.mem_set_unit]
  exact Iff.rfl

/-- The blocks tile the result: slab n is in the block of point n / 8. -/
theorem cover (i : S2048x256x256.Idx) : ∃ t : Fin cfg0.N, (cfg0.win 8).flush t = true ∧ i ∈ ((cfg0.win 8).blk t).view.set := by
  have hi0 : (i 0).val < 2048 := (i 0).isLt
  have hi1 : (i 1).val < 256 := (i 1).isLt
  have hi2 : (i 2).val < 256 := (i 2).isLt
  have hN : cfg0.N = 256 := N_0
  let t : Fin cfg0.N := ⟨(i 0).val / 8, by omega⟩
  obtain ⟨e00, e01, e02, e80, e81, e82, e10, e11, e20, e21, e30, e31, e40, e41, e50, e51, e60, e61, e70, e71⟩ := idx_facts t
  have ht : t.val = (i 0).val / 8 := rfl
  refine ⟨t, flush0_8 t, ?_⟩
  rw [mem_blk]
  intro a
  match a with
  | ⟨0, _⟩ => show win0_8.index t (0 : Fin 3) * 8 ≤ (i 0).val ∧ (i 0).val < win0_8.index t (0 : Fin 3) * 8 + 8; omega
  | ⟨1, _⟩ => show win0_8.index t (1 : Fin 3) * 256 ≤ (i 1).val ∧ (i 1).val < win0_8.index t (1 : Fin 3) * 256 + 256; omega
  | ⟨2, _⟩ => show win0_8.index t (2 : Fin 3) * 256 ≤ (i 2).val ∧ (i 2).val < win0_8.index t (2 : Fin 3) * 256 + 256; omega

/-- The region's result array after the run. -/
theorem final (c : Dev nD) : (dats m 0 c).arrAt 8 cfg0.N = region m c :=
  (dats m 0 c).arrAt_eq_of_cover 8 (region m c) (fun t _ => flushed_eq m c t) cover

/-! ## The arrays the region is launched on, and the reshape after it -/

theorem V_v0 (c : Dev nD) : V m c main_v0 = shapeCast S2048x256x256 (m ((c : Thread nD τ).loc main_arg0)) shapeCasts_S8x256x256x256_S2048x256x256 := by
  show StableHlo.after hostOps0 (fun b => m (c, b)) (Proc.devRef .tc main_v0) = _
  after_results
  rfl

theorem V_v1 (c : Dev nD) : V m c main_v1 = shapeCast S1x256 (m ((c : Thread nD τ).loc main_arg2)) shapeCasts_S256_S1x256 := by
  show StableHlo.after hostOps0 (fun b => m (c, b)) (Proc.devRef .tc main_v1) = _
  after_results
  rfl

theorem V_v2 (c : Dev nD) : V m c main_v2 = shapeCast S1x256 (m ((c : Thread nD τ).loc main_arg4)) shapeCasts_S256_S1x256 := by
  show StableHlo.after hostOps0 (fun b => m (c, b)) (Proc.devRef .tc main_v2) = _
  after_results
  rfl

theorem V_v3 (c : Dev nD) : V m c main_v3 = shapeCast S1x256 (m ((c : Thread nD τ).loc main_arg6)) shapeCasts_S256_S1x256 := by
  show StableHlo.after hostOps0 (fun b => m (c, b)) (Proc.devRef .tc main_v3) = _
  after_results
  rfl

theorem V_v4 (c : Dev nD) : V m c main_v4 = shapeCast S1x256 (m ((c : Thread nD τ).loc main_arg7)) shapeCasts_S256_S1x256 := by
  show StableHlo.after hostOps0 (fun b => m (c, b)) (Proc.devRef .tc main_v4) = _
  after_results
  rfl

/-- The program's result: the region's array reshaped to [8, 256, 256, 256]. -/
theorem tail_eq (c : Dev nD) :
    Pipeline.afterTail₀ cfgs (dats m) 0 (V0 m) [hostOps1] c main_v6
      = shapeCast S8x256x256x256 (region m c) shapeCasts_S2048x256x256_S8x256x256x256 := by
  unfold Pipeline.afterTail₀
  show StableHlo.after hostOps1 _ (Proc.devRef .tc main_v6) = _
  after_results
  exact congrArg (fun A => shapeCast S8x256x256x256 A shapeCasts_S2048x256x256_S8x256x256x256)
    ((Pipeline.withArrays_arr spec0 launch0.win.arr_inj c _ _ 8).trans (final m c))

/-- The reshaped region array is the specification's whole array of the program's arguments. -/
theorem result_eq (c : Dev nD) :
    shapeCast S8x256x256x256 (region m c) shapeCasts_S2048x256x256_S8x256x256x256
      = whole (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  funext j
  have hj0 : (j 0).val < 8 := (j 0).isLt
  have hj1 : (j 1).val < 256 := (j 1).isLt
  have hlt : (j 0).val * 256 + (j 1).val < 2048 := by omega
  refine (congrArg _ (eq_ix4 j)).trans ?_
  refine (LeadFold.shapeCast_mpq_abpq_apply _ shapeCasts_S2048x256x256_S8x256x256x256 (j 0) (j 1) (j 2) (j 3) ⟨(j 0).val * 256 + (j 1).val, hlt⟩ rfl).trans ?_
  unfold region whole
  refine slab_congr (funext fun i' => funext fun k => ?_) (funext fun k => funext fun d => ?_) (funext fun d => ?_)
    (funext fun k => funext fun d => ?_) (funext fun d => ?_) (funext fun k => funext fun d => ?_) (funext fun d => ?_) (funext fun d => ?_) rfl rfl
  · rw [V_v0]
    exact LeadFold.shapeCast_abpq_mpq_apply _ shapeCasts_S8x256x256x256_S2048x256x256 ⟨(j 0).val * 256 + (j 1).val, hlt⟩ i' k (j 0) (j 1) rfl
  · rw [V_main_arg1]
  · rw [V_v1]; exact shapeCast_a_1a_apply _ shapeCasts_S256_S1x256 0 d
  · rw [V_main_arg3]
  · rw [V_v2]; exact shapeCast_a_1a_apply _ shapeCasts_S256_S1x256 0 d
  · rw [V_main_arg5]
  · rw [V_v3]; exact shapeCast_a_1a_apply _ shapeCasts_S256_S1x256 0 d
  · rw [V_v4]; exact shapeCast_a_1a_apply _ shapeCasts_S256_S1x256 0 d

/-! ## The run -/

/-- Every weakly fair execution of the program terminates without a fault, its result array at the specification's
    whole array of the arguments, the arguments unchanged. -/
theorem run : θ_run defs (onTc (τ := τ) (main (F := Ideal))) ⟨m, fun _ => 0, ρ⟩ (fun r => ∀ c : Dev nD,
      r.2.mem ((c.tc : Thread nD τ).loc main_v6)
        = whole (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(((h c).2 main_v6 (Pipeline.mem_restRefs_of main_v6 (by decide) (by decide))).trans (tail_eq m c)).trans (result_eq m c),
      (((h c).2 main_arg0 (Pipeline.mem_restRefs_of main_arg0 (by decide) (by decide))).trans (W_main_arg0 m (dats m) c)),
      ((h c).1 1).trans ((((dats m) 0 c).arrAt_in 1 rfl _).trans ((A_eq m c 1).trans (V_main_arg1 m c))),
      (((h c).2 main_arg2 (Pipeline.mem_restRefs_of main_arg2 (by decide) (by decide))).trans (W_main_arg2 m (dats m) c)),
      ((h c).1 3).trans ((((dats m) 0 c).arrAt_in 3 rfl _).trans ((A_eq m c 3).trans (V_main_arg3 m c))),
      (((h c).2 main_arg4 (Pipeline.mem_restRefs_of main_arg4 (by decide) (by decide))).trans (W_main_arg4 m (dats m) c)),
      ((h c).1 5).trans ((((dats m) 0 c).arrAt_in 5 rfl _).trans ((A_eq m c 5).trans (V_main_arg5 m c))),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c))⟩) (run_main m ρ)

end Cert.KernelIdeal.RunValue

end
-- ==== Proof.RefRead.lean ====
/-
  The reference, stage by stage, read at one entry (b, h, i, ·) on the extended reals, and identified with the
  specification's slab: the reference works on the whole [8, 256, 256, 256] array, but every stage at (b, h, i, ·)
  depends only on the slab X(b, h) = x(b, h, ·, ·) — the projections through the row i or j of that slab, the scores,
  the row's maximum, exponentials and sum, the weights and the weighted values through the same (b, h).
-/
import proofs.«116155_j69750268887504_1_alg».proof.Proof.Gen.ReferenceIdeal.Read
import proofs.«116155_j69750268887504_1_alg».proof.Proof.LibLeadFold
import proofs.«116155_j69750268887504_1_alg».proof.Proof.AttnArray
import Idealize.ShloMosaic.Lib.ValueIdx
import Idealize.ShloMosaic.Lib.Pipeline.Value
import Idealize.ShloMosaic.PureOps.Ideal.Laws

noncomputable section

open scoped BigOperators

namespace Cert.ReferenceIdeal.RefRead

open Cert.ReferenceIdeal Cert.ReferenceIdeal.Gen Cert.ReferenceIdeal.Read Idealize.ShloMosaic Idealize.ShloMosaic.ValueIdx Cert.Attn

/-! ## The three projections -/

theorem lidx_v0 (b : Fin 8) (h i : Fin 256) (d k : Fin 256) : lidx_main_v0 (ix4 b h i d) k = ix4 b h i k :=
  funext fun a => Fin.ext (by match a with | ⟨0, _⟩ => rfl | ⟨1, _⟩ => rfl | ⟨2, _⟩ => rfl | ⟨3, _⟩ => rfl)
theorem ridx_v0 (b : Fin 8) (h i : Fin 256) (d k : Fin 256) : ridx_main_v0 (ix4 b h i d) k = ix2 k d :=
  funext fun a => Fin.ext (by match a with | ⟨0, _⟩ => rfl | ⟨1, _⟩ => rfl)
/-- The bias repeated over every position: at (b, h, i, d) the bias at d. -/
theorem bias_v2 (y : (⟨S256, .f32⟩ : BufTy).Contents (Elt Ideal)) (b : Fin 8) (h i : Fin 256) (d : Fin 256) : val_main_v2 (F := Ideal) y (ix4 b h i d) = y (ix1 d) := by
  rw [val_main_v2_apply, val_main_v1_apply]
  exact congrArg y (funext fun a => Fin.ext (by match a with | ⟨0, _⟩ => rfl))
/-- The projection at (b, h, i, d): the slab's row i times the matrix's column d, plus the bias at d. -/
theorem projQ (x0 : (⟨S8x256x256x256, .f32⟩ : BufTy).Contents (Elt Ideal)) (w : (⟨S256x256, .f32⟩ : BufTy).Contents (Elt Ideal)) (y : (⟨S256, .f32⟩ : BufTy).Contents (Elt Ideal)) (b : Fin 8) (h i : Fin 256) (d : Fin 256) :
    val_main_v3 (F := Ideal) x0 w y (ix4 b h i d)
      = proj (fun i' k => x0 (ix4 b h i' k)) (fun k d' => w (ix2 k d')) (fun d' => y (ix1 d')) i d := by
  rw [val_main_v3_apply, val_main_v0_apply, bias_v2]
  unfold proj
  refine congrArg₂ (· + ·) (Finset.sum_congr rfl fun k _ => ?_) rfl
  rw [lidx_v0, ridx_v0]

theorem lidx_v4 (b : Fin 8) (h i : Fin 256) (d k : Fin 256) : lidx_main_v4 (ix4 b h i d) k = ix4 b h i k :=
  funext fun a => Fin.ext (by match a with | ⟨0, _⟩ => rfl | ⟨1, _⟩ => rfl | ⟨2, _⟩ => rfl | ⟨3, _⟩ => rfl)
theorem ridx_v4 (b : Fin 8) (h i : Fin 256) (d k : Fin 256) : ridx_main_v4 (ix4 b h i d) k = ix2 k d :=
  funext fun a => Fin.ext (by match a with | ⟨0, _⟩ => rfl | ⟨1, _⟩ => rfl)
/-- The bias repeated over every position: at (b, h, i, d) the bias at d. -/
theorem bias_v6 (y : (⟨S256, .f32⟩ : BufTy).Contents (Elt Ideal)) (b : Fin 8) (h i : Fin 256) (d : Fin 256) : val_main_v6 (F := Ideal) y (ix4 b h i d) = y (ix1 d) := by
  rw [val_main_v6_apply, val_main_v5_apply]
  exact congrArg y (funext fun a => Fin.ext (by match a with | ⟨0, _⟩ => rfl))
/-- The projection at (b, h, i, d): the slab's row i times the matrix's column d, plus the bias at d. -/
theorem projK (x0 : (⟨S8x256x256x256, .f32⟩ : BufTy).Contents (Elt Ideal)) (w : (⟨S256x256, .f32⟩ : BufTy).Contents (Elt Ideal)) (y : (⟨S256, .f32⟩ : BufTy).Contents (Elt Ideal)) (b : Fin 8) (h i : Fin 256) (d : Fin 256) :
    val_main_v7 (F := Ideal) x0 w y (ix4 b h i d)
      = proj (fun i' k => x0 (ix4 b h i' k)) (fun k d' => w (ix2 k d')) (fun d' => y (ix1 d')) i d := by
  rw [val_main_v7_apply, val_main_v4_apply, bias_v6]
  unfold proj
  refine congrArg₂ (· + ·) (Finset.sum_congr rfl fun k _ => ?_) rfl
  rw [lidx_v4, ridx_v4]

theorem lidx_v8 (b : Fin 8) (h i : Fin 256) (d k : Fin 256) : lidx_main_v8 (ix4 b h i d) k = ix4 b h i k :=
  funext fun a => Fin.ext (by match a with | ⟨0, _⟩ => rfl | ⟨1, _⟩ => rfl | ⟨2, _⟩ => rfl | ⟨3, _⟩ => rfl)
theorem ridx_v8 (b : Fin 8) (h i : Fin 256) (d k : Fin 256) : ridx_main_v8 (ix4 b h i d) k = ix2 k d :=
  funext fun a => Fin.ext (by match a with | ⟨0, _⟩ => rfl | ⟨1, _⟩ => rfl)
/-- The bias repeated over every position: at (b, h, i, d) the bias at d. -/
theorem bias_v10 (y : (⟨S256, .f32⟩ : BufTy).Contents (Elt Ideal)) (b : Fin 8) (h i : Fin 256) (d : Fin 256) : val_main_v10 (F := Ideal) y (ix4 b h i d) = y (ix1 d) := by
  rw [val_main_v10_apply, val_main_v9_apply]
  exact congrArg y (funext fun a => Fin.ext (by match a with | ⟨0, _⟩ => rfl))
/-- The projection at (b, h, i, d): the slab's row i times the matrix's column d, plus the bias at d. -/
theorem projV (x0 : (⟨S8x256x256x256, .f32⟩ : BufTy).Contents (Elt Ideal)) (w : (⟨S256x256, .f32⟩ : BufTy).Contents (Elt Ideal)) (y : (⟨S256, .f32⟩ : BufTy).Contents (Elt Ideal)) (b : Fin 8) (h i : Fin 256) (d : Fin 256) :
    val_main_v11 (F := Ideal) x0 w y (ix4 b h i d)
      = proj (fun i' k => x0 (ix4 b h i' k)) (fun k d' => w (ix2 k d')) (fun d' => y (ix1 d')) i d := by
  rw [val_main_v11_apply, val_main_v8_apply, bias_v10]
  unfold proj
  refine congrArg₂ (· + ·) (Finset.sum_congr rfl fun k _ => ?_) rfl
  rw [lidx_v8, ridx_v8]

/-! ## The scores and the row-wise softmax -/

theorem lidx_v12 (b : Fin 8) (h i : Fin 256) (j c : Fin 256) : lidx_main_v12 (ix4 b h i j) c = ix4 b h i c :=
  funext fun a => Fin.ext (by match a with | ⟨0, _⟩ => rfl | ⟨1, _⟩ => rfl | ⟨2, _⟩ => rfl | ⟨3, _⟩ => rfl)
theorem ridx_v12 (b : Fin 8) (h i : Fin 256) (j c : Fin 256) : ridx_main_v12 (ix4 b h i j) c = ix4 b h j c :=
  funext fun a => Fin.ext (by match a with | ⟨0, _⟩ => rfl | ⟨1, _⟩ => rfl | ⟨2, _⟩ => rfl | ⟨3, _⟩ => rfl)

/-- The scores at (b, h, i, j): the slab's projections' rows i and j against each other. -/
theorem scores (x0 : (⟨S8x256x256x256, .f32⟩ : BufTy).Contents (Elt Ideal)) (x1 : (⟨S256x256, .f32⟩ : BufTy).Contents (Elt Ideal)) (x2 : (⟨S256, .f32⟩ : BufTy).Contents (Elt Ideal)) (x3 : (⟨S256x256, .f32⟩ : BufTy).Contents (Elt Ideal)) (x4 : (⟨S256, .f32⟩ : BufTy).Contents (Elt Ideal)) (b : Fin 8) (h i : Fin 256) (j : Fin 256) :
    val_main_v12 (F := Ideal) x0 x1 x2 x3 x4 (ix4 b h i j) = (score (proj (fun i' k => x0 (ix4 b h i' k)) (fun k d => x1 (ix2 k d)) (fun d => x2 (ix1 d))) (proj (fun i' k => x0 (ix4 b h i' k)) (fun k d => x3 (ix2 k d)) (fun d => x4 (ix1 d)))) i j := by
  rw [val_main_v12_apply]
  unfold score
  refine Finset.sum_congr rfl fun c _ => ?_
  rw [lidx_v12, ridx_v12, projQ, projK]

/-- The row's maximum, repeated along the row: at (b, h, i, j) the maximum over the row i of the slab's scores. -/
theorem rowMaxB (x0 : (⟨S8x256x256x256, .f32⟩ : BufTy).Contents (Elt Ideal)) (x1 : (⟨S256x256, .f32⟩ : BufTy).Contents (Elt Ideal)) (x2 : (⟨S256, .f32⟩ : BufTy).Contents (Elt Ideal)) (x3 : (⟨S256x256, .f32⟩ : BufTy).Contents (Elt Ideal)) (x4 : (⟨S256, .f32⟩ : BufTy).Contents (Elt Ideal)) (b : Fin 8) (h i : Fin 256) (j : Fin 256) :
    val_main_v17 (F := Ideal) x0 x1 x2 x3 x4 (ix4 b h i j) = rowMax (score (proj (fun i' k => x0 (ix4 b h i' k)) (fun k d => x1 (ix2 k d)) (fun d => x2 (ix1 d))) (proj (fun i' k => x0 (ix4 b h i' k)) (fun k d => x3 (ix2 k d)) (fun d => x4 (ix1 d)))) i := by
  rw [val_main_v17_apply, val_main_v16_apply, val_main_v15_apply]
  have e : idx_main_v16 (idx_main_v17 (ix4 b h i j)) = ix3 b h i :=
    funext fun a => Fin.ext (by match a with | ⟨0, _⟩ => rfl | ⟨1, _⟩ => rfl | ⟨2, _⟩ => rfl)
  rw [e, val_main_v14_apply]
  unfold val_main_v13 rowMax
  rw [LeadFold.hostLastMax4_apply _ _ reducesTo_S8x256x256x256_S8x256x256_d3 (by decide) h_S_ b h i]
  refine congrArg₂ max rfl ?_
  refine congrArg (fun f : Fin 256 → EReal => (Finset.univ : Finset (Fin 256)).fold max negInf f) (funext fun k => ?_)
  exact scores x0 x1 x2 x3 x4 b h i k

/-- The exponentials at (b, h, i, j). -/
theorem expos (x0 : (⟨S8x256x256x256, .f32⟩ : BufTy).Contents (Elt Ideal)) (x1 : (⟨S256x256, .f32⟩ : BufTy).Contents (Elt Ideal)) (x2 : (⟨S256, .f32⟩ : BufTy).Contents (Elt Ideal)) (x3 : (⟨S256x256, .f32⟩ : BufTy).Contents (Elt Ideal)) (x4 : (⟨S256, .f32⟩ : BufTy).Contents (Elt Ideal)) (b : Fin 8) (h i : Fin 256) (j : Fin 256) :
    val_main_v19 (F := Ideal) x0 x1 x2 x3 x4 (ix4 b h i j) = expo (score (proj (fun i' k => x0 (ix4 b h i' k)) (fun k d => x1 (ix2 k d)) (fun d => x2 (ix1 d))) (proj (fun i' k => x0 (ix4 b h i' k)) (fun k d => x3 (ix2 k d)) (fun d => x4 (ix1 d)))) i j := by
  rw [val_main_v19_apply, val_main_v18_apply, scores, rowMaxB]
  rfl

theorem idx_v20 (b : Fin 8) (h i : Fin 256) (k : Fin 256) : idx_main_v20 (ix3 b h i) k = ix4 b h i k :=
  funext fun a => Fin.ext (by match a with | ⟨0, _⟩ => rfl | ⟨1, _⟩ => rfl | ⟨2, _⟩ => rfl | ⟨3, _⟩ => rfl)

/-- The row's sum of exponentials, repeated along the row. -/
theorem rowSumB (x0 : (⟨S8x256x256x256, .f32⟩ : BufTy).Contents (Elt Ideal)) (x1 : (⟨S256x256, .f32⟩ : BufTy).Contents (Elt Ideal)) (x2 : (⟨S256, .f32⟩ : BufTy).Contents (Elt Ideal)) (x3 : (⟨S256x256, .f32⟩ : BufTy).Contents (Elt Ideal)) (x4 : (⟨S256, .f32⟩ : BufTy).Contents (Elt Ideal)) (b : Fin 8) (h i : Fin 256) (j : Fin 256) :
    val_main_v22 (F := Ideal) x0 x1 x2 x3 x4 (ix4 b h i j) = ∑ l : Fin 256, expo (score (proj (fun i' k => x0 (ix4 b h i' k)) (fun k d => x1 (ix2 k d)) (fun d => x2 (ix1 d))) (proj (fun i' k => x0 (ix4 b h i' k)) (fun k d => x3 (ix2 k d)) (fun d => x4 (ix1 d)))) i l := by
  rw [val_main_v22_apply, val_main_v21_apply]
  have e : idx_main_v21 (idx_main_v22 (ix4 b h i j)) = ix3 b h i :=
    funext fun a => Fin.ext (by match a with | ⟨0, _⟩ => rfl | ⟨1, _⟩ => rfl | ⟨2, _⟩ => rfl)
  rw [e, val_main_v20_apply]
  have z : val_main_cst_1 (F := Ideal) (Shape.Idx.first h_S_) = 0 := Ideal.ofBits_zero_f32
  rw [z, zero_add]
  refine Finset.sum_congr rfl fun l _ => ?_
  rw [idx_v20, expos]

/-- The weights at (b, h, i, j). -/
theorem probs (x0 : (⟨S8x256x256x256, .f32⟩ : BufTy).Contents (Elt Ideal)) (x1 : (⟨S256x256, .f32⟩ : BufTy).Contents (Elt Ideal)) (x2 : (⟨S256, .f32⟩ : BufTy).Contents (Elt Ideal)) (x3 : (⟨S256x256, .f32⟩ : BufTy).Contents (Elt Ideal)) (x4 : (⟨S256, .f32⟩ : BufTy).Contents (Elt Ideal)) (b : Fin 8) (h i : Fin 256) (j : Fin 256) :
    val_main_v23 (F := Ideal) x0 x1 x2 x3 x4 (ix4 b h i j) = prob (score (proj (fun i' k => x0 (ix4 b h i' k)) (fun k d => x1 (ix2 k d)) (fun d => x2 (ix1 d))) (proj (fun i' k => x0 (ix4 b h i' k)) (fun k d => x3 (ix2 k d)) (fun d => x4 (ix1 d)))) i j := by
  rw [val_main_v23_apply, expos, rowSumB]
  rfl

/-! ## The weighted values and the result -/

theorem lidx_v24 (b : Fin 8) (h i : Fin 256) (c j : Fin 256) : lidx_main_v24 (ix4 b h i c) j = ix4 b h i j :=
  funext fun a => Fin.ext (by match a with | ⟨0, _⟩ => rfl | ⟨1, _⟩ => rfl | ⟨2, _⟩ => rfl | ⟨3, _⟩ => rfl)
theorem ridx_v24 (b : Fin 8) (h i : Fin 256) (c j : Fin 256) : ridx_main_v24 (ix4 b h i c) j = ix4 b h j c :=
  funext fun a => Fin.ext (by match a with | ⟨0, _⟩ => rfl | ⟨1, _⟩ => rfl | ⟨2, _⟩ => rfl | ⟨3, _⟩ => rfl)

/-- The scale vector repeated over every position. -/
theorem scaleB (y : (⟨S256, .f32⟩ : BufTy).Contents (Elt Ideal)) (b : Fin 8) (h i : Fin 256) (d : Fin 256) : val_main_v26 (F := Ideal) y (ix4 b h i d) = y (ix1 d) := by
  rw [val_main_v26_apply, val_main_v25_apply]
  exact congrArg y (funext fun a => Fin.ext (by match a with | ⟨0, _⟩ => rfl))

/-- The reference's result at (b, h, i, c) is the specification's slab of X(b, h) at (i, c). -/
theorem result_apply (x0 : (⟨S8x256x256x256, .f32⟩ : BufTy).Contents (Elt Ideal)) (x1 : (⟨S256x256, .f32⟩ : BufTy).Contents (Elt Ideal)) (x2 : (⟨S256, .f32⟩ : BufTy).Contents (Elt Ideal)) (x3 : (⟨S256x256, .f32⟩ : BufTy).Contents (Elt Ideal)) (x4 : (⟨S256, .f32⟩ : BufTy).Contents (Elt Ideal)) (x5 : (⟨S256x256, .f32⟩ : BufTy).Contents (Elt Ideal)) (x6 x7 : (⟨S256, .f32⟩ : BufTy).Contents (Elt Ideal)) (b : Fin 8) (h i : Fin 256) (c : Fin 256) :
    val_main_v28 (F := Ideal) x0 x1 x2 x3 x4 x5 x6 x7 (ix4 b h i c)
      = slab (fun i' k => x0 (ix4 b h i' k)) (fun k d => x1 (ix2 k d)) (fun d => x2 (ix1 d)) (fun k d => x3 (ix2 k d)) (fun d => x4 (ix1 d))
          (fun k d => x5 (ix2 k d)) (fun d => x6 (ix1 d)) (fun d => x7 (ix1 d)) i c := by
  rw [val_main_v28_apply, val_main_v27_apply, scaleB, val_main_v24_apply]
  unfold slab attend
  refine congrArg₂ (· + ·) (congrArg₂ (· * ·) rfl (Finset.sum_congr rfl fun j _ => ?_)) rfl
  rw [lidx_v24, ridx_v24, probs, projV]

/-- The reference's whole result array is the specification's. -/
theorem result_eq (x0 : (⟨S8x256x256x256, .f32⟩ : BufTy).Contents (Elt Ideal)) (x1 : (⟨S256x256, .f32⟩ : BufTy).Contents (Elt Ideal)) (x2 : (⟨S256, .f32⟩ : BufTy).Contents (Elt Ideal)) (x3 : (⟨S256x256, .f32⟩ : BufTy).Contents (Elt Ideal)) (x4 : (⟨S256, .f32⟩ : BufTy).Contents (Elt Ideal)) (x5 : (⟨S256x256, .f32⟩ : BufTy).Contents (Elt Ideal)) (x6 x7 : (⟨S256, .f32⟩ : BufTy).Contents (Elt Ideal)) :
    val_main_v28 (F := Ideal) x0 x1 x2 x3 x4 x5 x6 x7 = whole x0 x1 x2 x3 x4 x5 x6 x7 :=
  funext fun j => (congrArg (val_main_v28 (F := Ideal) x0 x1 x2 x3 x4 x5 x6 x7) (eq_ix4 j)).trans
    (result_apply x0 x1 x2 x3 x4 x5 x6 x7 (j 0) (j 1) (j 2) (j 3))

end Cert.ReferenceIdeal.RefRead

end
-- ==== Proof.lean ====
/-
  Self-attention along the last spatial axis, slab by slab: a tiled kernel against its plain reference, equal on the
  extended reals.

  x is [8, 256, 256, 256]: 8 · 256 slabs X = x(b, h, ·, ·) of 256 positions by 256 channels. For each slab both programs
  form Q = X·Wq + bq, K = X·Wk + bk, V = X·Wv + bv, the scores S = Q·Kᵀ, the row-wise softmax P of S (each row's
  maximum folded from −∞ and subtracted, exponentials, divided by their sum), O = P·V, and return g · O + X.
  The reference does this on the whole array with batched products; the kernel reshapes x to 2048 slabs, takes them
  8 at a time, folds each block's 8 · 256 rows into one matrix for the three projections, and reshapes the result back.
  On the extended reals a change of float format is the identity and every product and reduction is the exact sum or
  maximum, taken over the same 256 terms in the same order on both sides, so the two results are the same function of
  the arguments entry by entry (`Cert.Attn.whole`): the kernel's by `Cert.KernelIdeal.RunValue.run` (what each grid point
  writes back is a block of one array, the blocks tile it, the reshape back re-indexes it), the reference's by reading
  its operations one at a time at an entry (`Cert.ReferenceIdeal.RefRead.result_eq`). No entry's finiteness is used.
  The three frames are the generated runs; the idealization changed nothing that needs a statement.
-/
import proofs.«116155_j69750268887504_1_alg».proof.Defs
import proofs.«116155_j69750268887504_1_alg».proof.Proof.Gen.Kernel
import proofs.«116155_j69750268887504_1_alg».proof.Proof.Gen.Kernel.Skeleton
import proofs.«116155_j69750268887504_1_alg».proof.Proof.Gen.Kernel.Launch
import proofs.«116155_j69750268887504_1_alg».proof.Proof.Gen.Kernel.Points
import proofs.«116155_j69750268887504_1_alg».proof.Proof.Gen.Kernel.Frame
import proofs.«116155_j69750268887504_1_alg».proof.Proof.Gen.KernelIdeal
import proofs.«116155_j69750268887504_1_alg».proof.Proof.Gen.KernelIdeal.Skeleton
import proofs.«116155_j69750268887504_1_alg».proof.Proof.Gen.KernelIdeal.Launch
import proofs.«116155_j69750268887504_1_alg».proof.Proof.Gen.KernelIdeal.Points
import proofs.«116155_j69750268887504_1_alg».proof.Proof.Gen.KernelIdeal.Frame
import proofs.«116155_j69750268887504_1_alg».proof.Proof.Gen.ReferenceIdeal
import proofs.«116155_j69750268887504_1_alg».proof.Proof.Gen.ReferenceIdeal.Run
import proofs.«116155_j69750268887504_1_alg».proof.Proof.Gen.ReferenceIdeal.Read
import proofs.«116155_j69750268887504_1_alg».proof.Proof.Gen.Pre_finite_inputs
import proofs.«116155_j69750268887504_1_alg».proof.Proof.KernelValue
import proofs.«116155_j69750268887504_1_alg».proof.Proof.RefRead
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel (hKernel := Cert.Kernel.Gen.facts) (hPre_finite_inputs := Cert.Pre_finite_inputs.Gen.facts) :=
  fun m ρ _ => Cert.Kernel.Gen.frame m ρ

/-- So does the idealized kernel. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference runs and leaves its arguments as they were: its run with the result forgotten. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories agreeing on the arguments both programs end with the attention of every slab of x. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Attn.whole (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [Cert.ReferenceIdeal.Read.val_main_v28_eq, Cert.ReferenceIdeal.RefRead.result_eq, h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
